-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4x4096x128 .f32) (main_arg1 : FVec F S128 .f32) (main_arg2 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x4096x128 : Shape := ⟨3, ![4, 4096, 128]⟩
abbrev S128 : Shape := ⟨1, ![128]⟩
abbrev S1x128 : Shape := ⟨2, ![1, 128]⟩
abbrev S1x4096x128 : Shape := ⟨3, ![1, 4096, 128]⟩
abbrev S4096x128 : Shape := ⟨2, ![4096, 128]⟩
abbrev S4096x4096 : Shape := ⟨2, ![4096, 4096]⟩
abbrev S1x4096 : Shape := ⟨2, ![1, 4096]⟩
abbrev S4096 : Shape := ⟨1, ![4096]⟩
abbrev S4096x1 : Shape := ⟨2, ![4096, 1]⟩
abbrev S128x128 : Shape := ⟨2, ![128, 128]⟩
abbrev S128x4096 : Shape := ⟨2, ![128, 4096]⟩
abbrev S128x1 : Shape := ⟨2, ![128, 1]⟩
abbrev S1x128x128 : Shape := ⟨3, ![1, 128, 128]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x128, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x128, .f32⟩
  | .local _ .vmem, ⟨3, _⟩ => ⟨S1x128, .f32⟩
  | .local _ .vmem, ⟨4, _⟩ => ⟨S1x4096x128, .f32⟩
  | .local _ .vmem, ⟨5, _⟩ => ⟨S1x4096x128, .f32⟩
  | .local _ .vmem, ⟨6, _⟩ => ⟨S4096x128, .f32⟩
  | .local _ .vmem, ⟨7, _⟩ => ⟨S4096x128, .bf16⟩
  | .local _ .vmem, ⟨8, _⟩ => ⟨S4096x128, .f32⟩
  | .local _ .vmem, ⟨9, _⟩ => ⟨S4096x4096, .bf16⟩
  | .local _ .vmem, ⟨10, _⟩ => ⟨S1x4096, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v21 : BitVec 32 := Scalar.addi c0_i32 c32_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v26 : BitVec 32 := Scalar.muli arg10 c128_i32
  v26
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v26 : BitVec 32 := Scalar.muli arg10 c128_i32
  let v27 : BitVec 32 := v26
  let v28 : Index := Scalar.indexCast v27
  let c0_18 : Index := 0#32
  ![v28.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v26 : BitVec 32 := Scalar.muli arg10 c128_i32
  let v27 : BitVec 32 := v26
  let v52 : Index := Scalar.indexCast v27
  let c0_30 : Index := 0#32
  ![v52.toNat, 0]
@[reducible] def k0_t2_loop : Scf.Loop 32 :=
  let c0_i32_14 : BitVec 32 := 0#32
  let c32_i32_15 : BitVec 32 := 32#32
  let v25 : BitVec 32 := Scalar.addi c0_i32_14 c32_i32_15
  let c1_i32_16 : BitVec 32 := 1#32
  ⟨c0_i32_14, v25, c1_i32_16⟩
def k0_mult2 (k0_t2 : Fin k0_t2_loop.trips) : BitVec 32 :=
  let c0_i32_14 : BitVec 32 := 0#32
  let c1_i32_16 : BitVec 32 := 1#32
  let arg10 : BitVec 32 := Scf.iv c0_i32_14 c1_i32_16 k0_t2
  let c128_i32 : BitVec 32 := 128#32
  let v26 : BitVec 32 := Scalar.muli arg10 c128_i32
  v26
def k0_off3 (k0_t2 : Fin k0_t2_loop.trips) : Fin 2 → Nat :=
  let c0_i32_14 : BitVec 32 := 0#32
  let c1_i32_16 : BitVec 32 := 1#32
  let arg10 : BitVec 32 := Scf.iv c0_i32_14 c1_i32_16 k0_t2
  let c128_i32 : BitVec 32 := 128#32
  let v26 : BitVec 32 := Scalar.muli arg10 c128_i32
  let v27 : BitVec 32 := v26
  let v28 : Index := Scalar.indexCast v27
  let c0_18 : Index := 0#32
  ![v28.toNat, 0]
def k0_off4 (k0_t2 : Fin k0_t2_loop.trips) : Fin 2 → Nat :=
  let c0_i32_14 : BitVec 32 := 0#32
  let c1_i32_16 : BitVec 32 := 1#32
  let arg10 : BitVec 32 := Scf.iv c0_i32_14 c1_i32_16 k0_t2
  let c128_i32 : BitVec 32 := 128#32
  let v26 : BitVec 32 := Scalar.muli arg10 c128_i32
  let v27 : BitVec 32 := v26
  let v36 : Index := Scalar.indexCast v27
  let c0_22 : Index := 0#32
  ![v36.toNat, 0]
def k0_off5 (k0_t2 : Fin k0_t2_loop.trips) : Fin 3 → Nat :=
  let c0_23 : Index := 0#32
  let c0_i32_14 : BitVec 32 := 0#32
  let c1_i32_16 : BitVec 32 := 1#32
  let arg10 : BitVec 32 := Scf.iv c0_i32_14 c1_i32_16 k0_t2
  let c128_i32 : BitVec 32 := 128#32
  let v26 : BitVec 32 := Scalar.muli arg10 c128_i32
  let v27 : BitVec 32 := v26
  let v39 : Index := Scalar.indexCast v27
  let c0_24 : Index := 0#32
  ![0, v39.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  packedbf16_S4096x128_S4096x128_0_0 : (Rect.unit (s := S4096x128) ![0, 0] S4096x128.size inb_S4096x128_S4096x128_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S128x128 : 0 < S128x128.numel
  reduces_S128x4096_S128 : S128x4096.Reduces [1] S128
  shapeCasts_S128_S128x1 : S128.ShapeCasts S128x1
  broadcasts_S128x1_S128x4096 : S128x1.Broadcasts S128x4096
  reduces_S128x4096_S4096 : S128x4096.Reduces [0] S4096
  shapeCasts_S4096_S1x4096 : S4096.ShapeCasts S1x4096
  h_S128x4096 : 0 < S128x4096.numel
  shapeCasts_S128x4096_S128x4096 : S128x4096.ShapeCasts S128x4096
  shapeCasts_S128x128_S128x128 : S128x128.ShapeCasts S128x128
  broadcasts_S1x4096_S128x4096 : S1x4096.Broadcasts S128x4096
  h_S1x128x128 : 0 < S1x128x128.numel
  shapeCasts_S1x128x128_S128x128 : S1x128x128.ShapeCasts S128x128
  reduces_S128x128_S128 : S128x128.Reduces [1] S128
  broadcasts_S128x1_S128x128 : S128x1.Broadcasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x128_S1x128x128 : S128x128.ShapeCasts S1x128x128
  dot_S128x128_S4096x128_S128x4096_1_1_0_0_n_n_wf : DotDims.WF S128x128 S4096x128 S128x4096 [1] [1] [0] [0] [] []
  dot_S128x4096_S4096x128_S128x128_1_0_0_1_n_n_wf : DotDims.WF S128x4096 S4096x128 S128x128 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S4096x128.size a
  k0_off2_inb : ∀ k0_t1 : Fin k0_t1_loop.trips, ∀ a, (k0_off2 k0_t1) a + S128x4096.size a ≤ S4096x4096.size a
  k0_off2_packedbf16 : ∀ k0_t1 : Fin k0_t1_loop.trips, (Rect.unit (s := S4096x4096) (k0_off2 k0_t1) S128x4096.size (k0_off2_inb k0_t1)).PackedRows (EltTy.packing .bf16)
  k0_t2_ok : k0_t2_loop.OK
  k0_mult2_dvd : ∀ k0_t2 : Fin k0_t2_loop.trips, 128 ∣ (k0_mult2 k0_t2).toNat
  k0_off3_inb : ∀ k0_t2 : Fin k0_t2_loop.trips, ∀ a, (k0_off3 k0_t2) a + S128x4096.size a ≤ S4096x4096.size a
  k0_off4_inb : ∀ k0_t2 : Fin k0_t2_loop.trips, ∀ a, (k0_off4 k0_t2) a + S128x128.size a ≤ S4096x128.size a
  k0_off5_inb : ∀ k0_t2 : Fin k0_t2_loop.trips, ∀ a, (k0_off5 k0_t2) a + S1x128x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x4096x128.size a
  hwx0_3 : ∀ i : grid0.Coords, EltTy.bits .f32 = 32 ∨ (Rect.block (s := S4x4096x128) S1x4096x128.size (cc0_transform_3 i) (hinb0_3 i)).WholeWords (EltTy.packing .f32)

variable [Facts₀]

def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S1x1x128 : Shape := ⟨3, ![1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128, .f32⟩
  | .hbm, ⟨2, _⟩ => ⟨S128, .f32⟩
  | .hbm, ⟨3, _⟩ => ⟨S4x4096x128, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x128, .f32⟩
  | .hbm, ⟨12, _⟩ => ⟨S4x4096x128, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x1x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x1x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x128, .f32⟩
  | .hbm, ⟨47, _⟩ => ⟨S_, .f32⟩
  | .hbm, ⟨48, _⟩ => ⟨S4x4096x128, .f32⟩
  | .hbm, ⟨49, _⟩ => ⟨S4x4096x128, .f32⟩
  | .hbm, ⟨50, _⟩ => ⟨S4x4096x128, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x128, .f32⟩
  | .hbm, ⟨58, _⟩ => ⟨S4x4096x128, .f32⟩
  | .hbm, ⟨59, _⟩ => ⟨S4x4096x128, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x128, .f32⟩
  | .hbm, ⟨67, _⟩ => ⟨S4x4096x128, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1, .f32⟩
  | .hbm, ⟨72, _⟩ => ⟨S4x4096x128, .f32⟩
  | .hbm, ⟨73, _⟩ => ⟨S4x4096x128, .f32⟩
  | .hbm, ⟨74, _⟩ => ⟨S1x1x128, .f32⟩
  | .hbm, ⟨75, _⟩ => ⟨S4x4096x128, .f32⟩
  | .hbm, ⟨76, _⟩ => ⟨S4x4096x128, .f32⟩
  | .hbm, ⟨77, _⟩ => ⟨S1x1x128, .f32⟩
  | .hbm, ⟨78, _⟩ => ⟨S4x4096x128, .f32⟩
  | .hbm, ⟨79, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x128_0_1_2 : S4x4096x1.BroadcastsInDim S4x4096x128 (![0, 1, 2] : Fin 3 → Fin S4x4096x128.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S_S4x4096x128 : S_.BroadcastsInDim S4x4096x128 (![] : Fin 0 → Fin S4x4096x128.rank)
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KBodyW.lean ====
/-
  What the kernel's body leaves in its output block, as a function of the three input blocks alone.

  The body keeps five scratch buffers. It first fills two of them from the input block x (the rows scaled to unit
  length, and a copy of x) and zeroes a row of column sums. A first loop over the 32 blocks of 128 rows computes, from
  the unit rows, the block's rows of the row-softmax matrix P; it stores exp P for the block, the block's part of
  P · x, and adds the block's column sums of exp P to the running row. A second loop over the same 32 blocks reads those
  back and stores the block's 128 rows of the result.

  So every buffer ends as a list of equal tiles, one per block, kept apart by the row axis, and what the second loop
  reads of a tile the first loop wrote is that tile's payload whatever the buffer held before. Read this way the
  output block is one function of the input blocks, in which the contents the scratch buffers happened to hold when the
  body started do not occur.
-/
import proofs.«114507_j55405078118436_2_alg».proof.Proof.Gen.Kernel.Frame.Runs
import Idealize.ShloMosaic.Lib.WritesUnit
import Idealize.ShloMosaic.Lib.Pipeline.FrameBody
import Idealize.ShloMosaic.Lib.Pipeline.Value
import Idealize.ShloMosaic.Lib.ValueIdx

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The rectangles the body loads and stores through -/

/-- Rows `128 k … 128 k + 127` of a 4096 × 128 buffer (first loop), and of the square buffer. -/
abbrev rRows (k : Fin k0_t1_loop.trips) : Rect S4096x128 := Rect.unit (s := S4096x128) (k0_off1 k) S128x128.size (k0_off1_inb k)
abbrev rRowsSq (k : Fin k0_t1_loop.trips) : Rect S4096x4096 := Rect.unit (s := S4096x4096) (k0_off2 k) S128x4096.size (k0_off2_inb k)
/-- The same rows as the second loop addresses them. -/
abbrev rRowsSq' (k : Fin k0_t2_loop.trips) : Rect S4096x4096 := Rect.unit (s := S4096x4096) (k0_off3 k) S128x4096.size (k0_off3_inb k)
abbrev rRows' (k : Fin k0_t2_loop.trips) : Rect S4096x128 := Rect.unit (s := S4096x128) (k0_off4 k) S128x128.size (k0_off4_inb k)
abbrev rBlk (k : Fin k0_t2_loop.trips) : Rect S1x4096x128 := Rect.unit (s := S1x4096x128) (k0_off5 k) S1x128x128.size (k0_off5_inb k)
/-- The whole of each buffer, as the unit-stride rectangle at offset zero. -/
abbrev rAllX : Rect S1x4096x128 := Rect.unit (s := S1x4096x128) ![0, 0, 0] S1x4096x128.size inb_S1x4096x128_S1x4096x128_0_0_0
abbrev rAllM : Rect S4096x128 := Rect.unit (s := S4096x128) ![0, 0] S4096x128.size inb_S4096x128_S4096x128_0_0
abbrev rAllC : Rect S1x4096 := Rect.unit (s := S1x4096) ![0, 0] S1x4096.size inb_S1x4096_S1x4096_0_0
abbrev rAllW : Rect S1x128 := Rect.unit (s := S1x128) ![0, 0] S1x128.size inb_S1x128_S1x128_0_0

/-! ## One trip of each loop, opened once -/

/-- One trip of the first loop stores one tile into each of three buffers: the block's part of `P · x`, the block's rows of
    `exp P`, and the running column sums; only the last depends on what the trip found (the sums so far). -/
theorem trip1_pieces (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
    (X_arg5 : BufTy.Contents (Elt F) arg5.view.ty) (X_arg6 : BufTy.Contents (Elt F) arg6.view.ty) (k : Fin k0_t1_loop.trips)
    (f_arg7 : BufTy.Contents (Elt F) arg7.view.ty) (f_arg8 : BufTy.Contents (Elt F) arg8.view.ty) (f_arg9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 X_arg5 X_arg6 k f_arg7 f_arg8 f_arg9
      = ([⟨rRows k, k0_pay9 (View.readAt (Elt F) arg5.view (rRows k).toLoadRect X_arg5) (View.readAt (Elt F) arg5.view rAllM.toLoadRect X_arg5)
              (View.readAt (Elt F) arg6.view rAllM.toLoadRect X_arg6)⟩],
         [⟨rRowsSq k, k0_pay8 (View.readAt (Elt F) arg5.view (rRows k).toLoadRect X_arg5) (View.readAt (Elt F) arg5.view rAllM.toLoadRect X_arg5)⟩],
         [⟨rAllC, k0_pay7 (View.readAt (Elt F) arg5.view (rRows k).toLoadRect X_arg5) (View.readAt (Elt F) arg5.view rAllM.toLoadRect X_arg5)
              (View.readAt (Elt F) arg9.view rAllC.toLoadRect f_arg9)⟩]) := by
  unfold tripL_k0_t1 trip_k0_t1
  rfl

/-- One trip of the second loop stores the block's 128 rows of the result, computed from the block's rows of `exp P` and of
    `P · x`, the column sums, the copy of x, the block's rows of x, and the two feature vectors. -/
theorem trip2_pieces (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
    (v22 : Vec F S1x4096 .f32) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (k : Fin k0_t2_loop.trips) :
    tripL_k0_t2 (F := F) 𝒱 c bd i arg1 harg1 arg2 harg2 arg3 harg3 arg4 harg4 arg5 harg5 arg6 harg6 arg7 harg7 arg8 harg8 arg9 harg9 v22 X_arg1 X_arg2 X_arg3 X_arg6 X_arg7 X_arg8 k
      = [⟨rBlk k, k0_pay11 (k0_pay12 (k0_pay10 v22) (View.readAt (Elt F) arg8.view (rRowsSq' k).toLoadRect X_arg8)
              (View.readAt (Elt F) arg6.view rAllM.toLoadRect X_arg6) (View.readAt (Elt F) arg7.view (rRows' k).toLoadRect X_arg7)
              (View.readAt (Elt F) arg1.view (rBlk k).toLoadRect X_arg1) (View.readAt (Elt F) arg2.view rAllW.toLoadRect X_arg2))
            (View.readAt (Elt F) arg3.view rAllW.toLoadRect X_arg3)⟩] := by
  unfold tripL_k0_t2 trip_k0_t2
  dsimp only
  unfold trip_k0_t2.sl.r
  rfl

/-! ## The first loop -/

/-- The running row of column sums after `k` trips of the first loop, from the row `c0` it starts at: each trip adds the block's
    column sums of `exp P`, computed from the block's unit rows and all the unit rows `XN`. -/
def colsumAfter (XN : Vec F S4096x128 .f32) (c0 : Vec F S1x4096 .f32) : ℕ → Vec F S1x4096 .f32
  | 0 => c0
  | k + 1 =>
    if h : k < k0_t1_loop.trips then
      k0_pay7 (View.ld XN (rRows ⟨k, h⟩)) (View.ld XN rAllM) (View.ld (colsumAfter XN c0 k) rAllC)
    else colsumAfter XN c0 k

/-- A store through the whole of a 4096 × 128 buffer reads back as its payload, whatever was there. -/
theorem read_cons_allM {e : EltTy} (M : Memref sig .tc .vmem S4096x128 e) (f : BufTy.Contents (Elt F) M.view.ty)
    (w : rAllM.shape.Idx → Elt F e) (L : List (View.Piece (Elt F) S4096x128 e)) :
    M.view.read (Elt F) (M.view.writes (Elt F) f ((⟨rAllM, w⟩ : View.Piece (Elt F) S4096x128 e) :: L)) = w := by
  funext y
  exact View.read_writes_cons_unit_of_mem M.view f inb_S4096x128_S4096x128_0_0 w L y y rfl
    (Fin.forall_fin_two.mpr ⟨(Nat.zero_add _).symm, (Nat.zero_add _).symm⟩)

section Loop1

variable (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
  (X5 : BufTy.Contents (Elt F) arg5.view.ty) (X6 : BufTy.Contents (Elt F) arg6.view.ty)
  (G7 : BufTy.Contents (Elt F) arg7.view.ty) (G8 : BufTy.Contents (Elt F) arg8.view.ty) (G9 : BufTy.Contents (Elt F) arg9.view.ty)

/-- Block `j`'s part of `P · x`, and its rows of `exp P`, from what the two read-only scratch buffers hold. -/
abbrev partOf (j : Fin k0_t1_loop.trips) : (⟨S4096x128.rank, S128x128.size⟩ : Shape).Idx → Elt F .f32 :=
  k0_pay9 (View.readAt (Elt F) arg5.view (rRows j).toLoadRect X5) (View.readAt (Elt F) arg5.view rAllM.toLoadRect X5)
    (View.readAt (Elt F) arg6.view rAllM.toLoadRect X6)
abbrev expOf (j : Fin k0_t1_loop.trips) : (⟨S4096x4096.rank, S128x4096.size⟩ : Shape).Idx → Elt F .bf16 :=
  k0_pay8 (View.readAt (Elt F) arg5.view (rRows j).toLoadRect X5) (View.readAt (Elt F) arg5.view rAllM.toLoadRect X5)

/-- A store through the whole row of column sums reads back as its payload, whatever was there. -/
theorem read_cons_allC (f : BufTy.Contents (Elt F) arg9.view.ty) (w : rAllC.shape.Idx → Elt F .f32) (L : List (View.Piece (Elt F) S1x4096 .f32)) :
    arg9.view.read (Elt F) (arg9.view.writes (Elt F) f ((⟨rAllC, w⟩ : View.Piece (Elt F) S1x4096 .f32) :: L)) = w := by
  funext y
  exact View.read_writes_cons_unit_of_mem arg9.view f inb_S1x4096_S1x4096_0_0 w L y y rfl
    (Fin.forall_fin_two.mpr ⟨(Nat.zero_add _).symm, (Nat.zero_add _).symm⟩)

/-- After `k` trips the first loop has written `k` tiles of `P · x`, `k` tiles of `exp P`, and the row of column sums holds
    `colsumAfter … k`. -/
theorem loop1_lists (k : ℕ) (hk : k ≤ k0_t1_loop.trips) :
    (pb_k0_t1 (F := F) 𝒱 c bd i arg1 harg1 arg2 harg2 arg3 harg3 arg4 harg4 arg5 harg5 arg6 harg6 arg7 harg7 arg8 harg8 arg9 harg9 X5 X6 G7 G8 G9 k).1
        = View.tilePieces (s := S4096x128) S128x128.size k0_off1 k0_off1_inb (partOf arg5 arg6 X5 X6) k hk
    ∧ (pb_k0_t1 (F := F) 𝒱 c bd i arg1 harg1 arg2 harg2 arg3 harg3 arg4 harg4 arg5 harg5 arg6 harg6 arg7 harg7 arg8 harg8 arg9 harg9 X5 X6 G7 G8 G9 k).2.1
        = View.tilePieces (s := S4096x4096) S128x4096.size k0_off2 k0_off2_inb (expOf arg5 X5) k hk
    ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 X5 X6 G7 G8 G9 k).2.2)
        = colsumAfter (arg5.view.read (Elt F) X5) (arg9.view.read (Elt F) G9) k := by
  induction k with
  | zero => exact ⟨rfl, rfl, rfl⟩
  | succ k ih =>
    have hk' : k < k0_t1_loop.trips := hk
    obtain ⟨ih7, ih8, ih9⟩ := ih (Nat.le_of_succ_le hk)
    have e := pb_k0_t1_succ (F := F) 𝒱 c bd i arg1 harg1 arg2 harg2 arg3 harg3 arg4 harg4 arg5 harg5 arg6 harg6 arg7 harg7 arg8 harg8 arg9 harg9 X5 X6 G7 G8 G9 ⟨k, hk'⟩
    rw [show pb_k0_t1 (F := F) 𝒱 c bd i arg1 harg1 arg2 harg2 arg3 harg3 arg4 harg4 arg5 harg5 arg6 harg6 arg7 harg7 arg8 harg8 arg9 harg9 X5 X6 G7 G8 G9 (k + 1) = _ from e, trip1_pieces]
    refine ⟨?_, ?_, ?_⟩
    · show _ :: _ = _
      rw [ih7]; rfl
    · show _ :: _ = _
      rw [ih8]; rfl
    · show arg9.view.read (Elt F) (arg9.view.writes (Elt F) G9 (_ :: _)) = _
      rw [read_cons_allC, colsumAfter, dif_pos hk', ← ih9]
      rfl

end Loop1

/-! ## What the second loop reads of the first loop's tiles -/

theorem trips1_eq : k0_t1_loop.trips = 32 := by decide +kernel
theorem trips2_eq : k0_t2_loop.trips = 32 := by decide +kernel

/-- The first loop's trip that handled the same block of rows. -/
def sameTrip (k : Fin k0_t2_loop.trips) : Fin k0_t1_loop.trips :=
  ⟨k.val, by have h := k.isLt; have e1 := trips1_eq; have e2 := trips2_eq; omega⟩

section Reads

variable (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)

/-- Rows `128 k … 128 k + 127` of the buffer of 32 tiles of `P · x` read the tile of block `k`, whatever the buffer held before:
    on the row axis an index of that block misses every other tile. -/
theorem read_part_tile (G7 : BufTy.Contents (Elt F) arg7.view.ty)
    (P : Fin k0_t1_loop.trips → (⟨S4096x128.rank, S128x128.size⟩ : Shape).Idx → Elt F .f32) (k : Fin k0_t2_loop.trips) :
    View.readAt (Elt F) arg7.view (rRows' k).toLoadRect
        (arg7.view.writes (Elt F) G7 (View.tilePieces (s := S4096x128) S128x128.size k0_off1 k0_off1_inb P k0_t1_loop.trips le_rfl))
      = P (sameTrip k) := by
  funext x
  refine View.read_tilePieces arg7.view G7 S128x128.size k0_off1 k0_off1_inb P _ le_rfl _ (sameTrip k) (sameTrip k).isLt x ?_ (0 : Fin 2) ?_
  · intro a
    show k0_off4 k a + 1 * (x a).val = k0_off1 (sameTrip k) a + (x a).val
    rw [k0_off4_eq, k0_off1_eq, Nat.one_mul]; rfl
  · intro i' hne
    have hx : (x (0 : Fin 2)).val < 128 := (x (0 : Fin 2)).isLt
    have hne' : i'.val ≠ k.val := fun h => hne (Fin.ext h)
    show k0_off4 k 0 + 1 * (x (0 : Fin 2)).val < k0_off1 i' 0 ∨ k0_off1 i' 0 + 128 ≤ k0_off4 k 0 + 1 * (x (0 : Fin 2)).val
    rw [k0_off4_eq, k0_off1_eq]
    show 128 * k.val + 1 * (x (0 : Fin 2)).val < 128 * i'.val ∨ 128 * i'.val + 128 ≤ 128 * k.val + 1 * (x (0 : Fin 2)).val
    omega

/-- The same for the square buffer of 32 tiles of `exp P`. -/
theorem read_exp_tile (G8 : BufTy.Contents (Elt F) arg8.view.ty)
    (P : Fin k0_t1_loop.trips → (⟨S4096x4096.rank, S128x4096.size⟩ : Shape).Idx → Elt F .bf16) (k : Fin k0_t2_loop.trips) :
    View.readAt (Elt F) arg8.view (rRowsSq' k).toLoadRect
        (arg8.view.writes (Elt F) G8 (View.tilePieces (s := S4096x4096) S128x4096.size k0_off2 k0_off2_inb P k0_t1_loop.trips le_rfl))
      = P (sameTrip k) := by
  funext x
  refine View.read_tilePieces arg8.view G8 S128x4096.size k0_off2 k0_off2_inb P _ le_rfl _ (sameTrip k) (sameTrip k).isLt x ?_ (0 : Fin 2) ?_
  · intro a
    show k0_off3 k a + 1 * (x a).val = k0_off2 (sameTrip k) a + (x a).val
    rw [k0_off3_eq, k0_off2_eq, Nat.one_mul]; rfl
  · intro i' hne
    have hx : (x (0 : Fin 2)).val < 128 := (x (0 : Fin 2)).isLt
    have hne' : i'.val ≠ k.val := fun h => hne (Fin.ext h)
    show k0_off3 k 0 + 1 * (x (0 : Fin 2)).val < k0_off2 i' 0 ∨ k0_off2 i' 0 + 128 ≤ k0_off3 k 0 + 1 * (x (0 : Fin 2)).val
    rw [k0_off3_eq, k0_off2_eq]
    show 128 * k.val + 1 * (x (0 : Fin 2)).val < 128 * i'.val ∨ 128 * i'.val + 128 ≤ 128 * k.val + 1 * (x (0 : Fin 2)).val
    omega

end Reads

/-! ## The second loop -/

section Loop2

variable (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
  (v22 : Vec F S1x4096 .f32) (X1 : BufTy.Contents (Elt F) arg1.view.ty) (X2 : BufTy.Contents (Elt F) arg2.view.ty) (X3 : BufTy.Contents (Elt F) arg3.view.ty)
  (X6 : BufTy.Contents (Elt F) arg6.view.ty) (X7 : BufTy.Contents (Elt F) arg7.view.ty) (X8 : BufTy.Contents (Elt F) arg8.view.ty)

/-- Block `j`'s 128 rows of the result, from what the buffers hold during the second loop. -/
abbrev rowsOutOf (j : Fin k0_t2_loop.trips) : (⟨S1x4096x128.rank, S1x128x128.size⟩ : Shape).Idx → Elt F .f32 :=
  k0_pay11 (k0_pay12 (k0_pay10 v22) (View.readAt (Elt F) arg8.view (rRowsSq' j).toLoadRect X8)
      (View.readAt (Elt F) arg6.view rAllM.toLoadRect X6) (View.readAt (Elt F) arg7.view (rRows' j).toLoadRect X7)
      (View.readAt (Elt F) arg1.view (rBlk j).toLoadRect X1) (View.readAt (Elt F) arg2.view rAllW.toLoadRect X2))
    (View.readAt (Elt F) arg3.view rAllW.toLoadRect X3)

/-- After `k` trips the second loop has written `k` tiles of 128 rows of the result. -/
theorem loop2_list (k : ℕ) (hk : k ≤ k0_t2_loop.trips) :
    pb_k0_t2 (F := F) 𝒱 c bd i arg1 harg1 arg2 harg2 arg3 harg3 arg4 harg4 arg5 harg5 arg6 harg6 arg7 harg7 arg8 harg8 arg9 harg9 v22 X1 X2 X3 X6 X7 X8 k
      = View.tilePieces (s := S1x4096x128) S1x128x128.size k0_off5 k0_off5_inb
          (rowsOutOf arg1 arg2 arg3 arg6 arg7 arg8 v22 X1 X2 X3 X6 X7 X8) k hk := by
  induction k with
  | zero => rfl
  | succ k ih =>
    have hk' : k < k0_t2_loop.trips := hk
    have e := pb_k0_t2_succ (F := F) 𝒱 c bd i arg1 harg1 arg2 harg2 arg3 harg3 arg4 harg4 arg5 harg5 arg6 harg6 arg7 harg7 arg8 harg8 arg9 harg9 v22 X1 X2 X3 X6 X7 X8 ⟨k, hk'⟩
    rw [show pb_k0_t2 (F := F) 𝒱 c bd i arg1 harg1 arg2 harg2 arg3 harg3 arg4 harg4 arg5 harg5 arg6 harg6 arg7 harg7 arg8 harg8 arg9 harg9 v22 X1 X2 X3 X6 X7 X8 (k + 1) = _ from e, trip2_pieces, ih (Nat.le_of_succ_le hk)]
    rfl

end Loop2

/-! ## The output block as one function of the input blocks -/

/-- The rows of the input block scaled to unit length, and the copy of the input block. -/
def unitRows (x0 : Vec F S1x4096x128 .f32) : Vec F S4096x128 .f32 := k0_pay2 (View.ld x0 rAllX)
def copyRows (x0 : Vec F S1x4096x128 .f32) : Vec F S4096x128 .bf16 := k0_pay3 (View.ld x0 rAllX)

/-- The column sums of `exp P` over all 32 blocks, from the zero row. -/
def colsumAll (x0 : Vec F S1x4096x128 .f32) : Vec F S1x4096 .f32 :=
  colsumAfter (unitRows x0) (k0_pay4 (F := F)) k0_t1_loop.trips

/-- Block `j`'s 128 rows of the result, from the input blocks alone. -/
def outTile (x0 : Vec F S1x4096x128 .f32) (x1 x2 : Vec F S1x128 .f32) (j : Fin k0_t2_loop.trips) :
    (⟨S1x4096x128.rank, S1x128x128.size⟩ : Shape).Idx → Elt F .f32 :=
  k0_pay11 (k0_pay12 (k0_pay10 (View.ld (colsumAll x0) rAllC))
      (k0_pay8 (View.ld (unitRows x0) (rRows (sameTrip j))) (View.ld (unitRows x0) rAllM))
      (View.ld (copyRows x0) rAllM)
      (k0_pay9 (View.ld (unitRows x0) (rRows (sameTrip j))) (View.ld (unitRows x0) rAllM) (View.ld (copyRows x0) rAllM))
      (View.ld x0 (rBlk j)) (View.ld x1 rAllW))
    (View.ld x2 rAllW)

/-- Row `n < 4096` lies in one of the 32 blocks. -/
theorem blockOf_lt (y : S1x4096x128.Idx) : (y (1 : Fin 3)).val / 128 < k0_t2_loop.trips := by
  have h : (y (1 : Fin 3)).val < 4096 := (y (1 : Fin 3)).isLt
  have e2 := trips2_eq
  omega

/-- The whole output block: row `n` lies in block `n / 128`, at row `n % 128` of its tile. -/
def outBlock (x0 : Vec F S1x4096x128 .f32) (x1 x2 : Vec F S1x128 .f32) : Vec F S1x4096x128 .f32 := fun y =>
  outTile x0 x1 x2 ⟨(y (1 : Fin 3)).val / 128, blockOf_lt y⟩
    (ValueIdx.ix3 (0 : Fin 1) (⟨(y (1 : Fin 3)).val % 128, Nat.mod_lt _ (by decide)⟩ : Fin 128)
      (⟨(y (2 : Fin 3)).val, (y (2 : Fin 3)).isLt⟩ : Fin 128))

/-- The 32 tiles of the result written over anything read back as the output block. -/
theorem read_out_tiles (arg4 : Memref sig .tc .vmem S1x4096x128 .f32) (f3 : BufTy.Contents (Elt F) arg4.view.ty)
    (x0 : Vec F S1x4096x128 .f32) (x1 x2 : Vec F S1x128 .f32) :
    arg4.view.read (Elt F) (arg4.view.writes (Elt F) f3
        (View.tilePieces (s := S1x4096x128) S1x128x128.size k0_off5 k0_off5_inb (outTile x0 x1 x2) k0_t2_loop.trips le_rfl))
      = outBlock x0 x1 x2 := by
  funext y
  have h0 : (y (0 : Fin 3)).val < 1 := (y (0 : Fin 3)).isLt
  have h1 : (y (1 : Fin 3)).val < 4096 := (y (1 : Fin 3)).isLt
  have hlt : (y (1 : Fin 3)).val / 128 < k0_t2_loop.trips := blockOf_lt y
  refine View.read_tilePieces arg4.view f3 S1x128x128.size k0_off5 k0_off5_inb (outTile x0 x1 x2) _ le_rfl y
    ⟨(y (1 : Fin 3)).val / 128, hlt⟩ hlt _ ?_ (1 : Fin 3) ?_
  · intro a
    rw [k0_off5_eq]
    match a with
    | ⟨0, _⟩ => show (y (0 : Fin 3)).val = 0 + 0; omega
    | ⟨1, _⟩ => show (y (1 : Fin 3)).val = 128 * ((y (1 : Fin 3)).val / 128) + (y (1 : Fin 3)).val % 128; omega
    | ⟨2, _⟩ => show (y (2 : Fin 3)).val = 0 + (y (2 : Fin 3)).val; omega
  · intro i' hne
    have hne' : i'.val ≠ (y (1 : Fin 3)).val / 128 := fun h => hne (Fin.ext h)
    rw [k0_off5_eq]
    show (y (1 : Fin 3)).val < 128 * i'.val ∨ 128 * i'.val + 128 ≤ (y (1 : Fin 3)).val
    omega

/-! ## The body's output, whatever the scratch buffers held -/

section Value

variable (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
  (x0 : Vec F S1x4096x128 .f32) (x1 x2 : Vec F S1x128 .f32)
  (X1 : BufTy.Contents (Elt F) arg1.view.ty) (X2 : BufTy.Contents (Elt F) arg2.view.ty) (X3 : BufTy.Contents (Elt F) arg3.view.ty)
  (X5 : BufTy.Contents (Elt F) arg5.view.ty) (X6 : BufTy.Contents (Elt F) arg6.view.ty)
  (G7 : BufTy.Contents (Elt F) arg7.view.ty) (G8 : BufTy.Contents (Elt F) arg8.view.ty) (G9 : BufTy.Contents (Elt F) arg9.view.ty)
  (f3 : BufTy.Contents (Elt F) arg4.view.ty)

/-- When the three input memrefs read the input blocks, the two read-only scratch buffers read the unit rows and the copy, and
    the row of column sums starts at zero, the 32 tiles the second loop leaves in the output memref — each computed from
    what the first loop wrote over arbitrary contents `G7`, `G8` — read back as `outBlock` of the input blocks. -/
theorem body_value
    (h1 : arg1.view.read (Elt F) X1 = x0) (h2 : arg2.view.read (Elt F) X2 = x1) (h3 : arg3.view.read (Elt F) X3 = x2)
    (h5 : arg5.view.read (Elt F) X5 = unitRows x0) (h6 : arg6.view.read (Elt F) X6 = copyRows x0)
    (h9 : arg9.view.read (Elt F) G9 = k0_pay4 (F := F)) (v22 : Vec F S1x4096 .f32)
    (hv : v22 = View.readAt (Elt F) arg9.view rAllC.toLoadRect (arg9.view.writes (Elt F) G9 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).2.2)) :
    arg4.view.read (Elt F) (arg4.view.writes (Elt F) f3
        (pb_k0_t2 (F := F) 𝒱 c bd i arg1 harg1 arg2 harg2 arg3 harg3 arg4 harg4 arg5 harg5 arg6 harg6 arg7 harg7 arg8 harg8 arg9 harg9 v22 X1 X2 X3 X6
          (arg7.view.writes (Elt F) G7 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).1) (arg8.view.writes (Elt F) G8 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).2.1) k0_t2_loop.trips))
      = outBlock x0 x1 x2 := by
  obtain ⟨e7, e8, e9⟩ := loop1_lists (F := F) 𝒱 c bd i arg1 harg1 arg2 harg2 arg3 harg3 arg4 harg4 arg5 harg5 arg6 harg6 arg7 harg7 arg8 harg8 arg9 harg9 X5 X6 G7 G8 G9 k0_t1_loop.trips le_rfl
  rw [loop2_list (F := F) 𝒱 c bd i arg1 harg1 arg2 harg2 arg3 harg3 arg4 harg4 arg5 harg5 arg6 harg6 arg7 harg7 arg8 harg8 arg9 harg9 v22 X1 X2 X3 X6 _ _ k0_t2_loop.trips le_rfl]
  have hT : rowsOutOf arg1 arg2 arg3 arg6 arg7 arg8 v22 X1 X2 X3 X6
        (arg7.view.writes (Elt F) G7 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).1) (arg8.view.writes (Elt F) G8 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).2.1)
      = outTile x0 x1 x2 := by
    funext j
    unfold rowsOutOf
    rw [e7, e8, read_part_tile, read_exp_tile, hv]
    unfold outTile colsumAll partOf expOf
    simp only [View.readAt_eq_ld, h1, h2, h3, h5, h6, h9, e9]
  rw [hT]
  exact read_out_tiles arg4 f3 x0 x1 x2

end Value

end Cert.Kernel.GenP

end
-- ==== Proof.KBody.lean ====
/-
  What the kernel's body leaves in its output block, as a function of the three input blocks alone.

  The body keeps five scratch buffers. It first fills two of them from the input block x (the rows scaled to unit
  length, and a copy of x) and zeroes a row of column sums. A first loop over the 32 blocks of 128 rows computes, from
  the unit rows, the block's rows of the row-softmax matrix P; it stores exp P for the block, the block's part of
  P · x, and adds the block's column sums of exp P to the running row. A second loop over the same 32 blocks reads those
  back and stores the block's 128 rows of the result.

  So every buffer ends as a list of equal tiles, one per block, kept apart by the row axis, and what the second loop
  reads of a tile the first loop wrote is that tile's payload whatever the buffer held before. Read this way the
  output block is one function of the input blocks, in which the contents the scratch buffers happened to hold when the
  body started do not occur.
-/
import proofs.«114507_j55405078118436_2_alg».proof.Proof.Gen.KernelIdeal.Frame.Runs
import Idealize.ShloMosaic.Lib.WritesUnit
import Idealize.ShloMosaic.Lib.Pipeline.FrameBody
import Idealize.ShloMosaic.Lib.Pipeline.Value
import Idealize.ShloMosaic.Lib.ValueIdx

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The rectangles the body loads and stores through -/

/-- Rows `128 k … 128 k + 127` of a 4096 × 128 buffer (first loop), and of the square buffer. -/
abbrev rRows (k : Fin k0_t1_loop.trips) : Rect S4096x128 := Rect.unit (s := S4096x128) (k0_off1 k) S128x128.size (k0_off1_inb k)
abbrev rRowsSq (k : Fin k0_t1_loop.trips) : Rect S4096x4096 := Rect.unit (s := S4096x4096) (k0_off2 k) S128x4096.size (k0_off2_inb k)
/-- The same rows as the second loop addresses them. -/
abbrev rRowsSq' (k : Fin k0_t2_loop.trips) : Rect S4096x4096 := Rect.unit (s := S4096x4096) (k0_off3 k) S128x4096.size (k0_off3_inb k)
abbrev rRows' (k : Fin k0_t2_loop.trips) : Rect S4096x128 := Rect.unit (s := S4096x128) (k0_off4 k) S128x128.size (k0_off4_inb k)
abbrev rBlk (k : Fin k0_t2_loop.trips) : Rect S1x4096x128 := Rect.unit (s := S1x4096x128) (k0_off5 k) S1x128x128.size (k0_off5_inb k)
/-- The whole of each buffer, as the unit-stride rectangle at offset zero. -/
abbrev rAllX : Rect S1x4096x128 := Rect.unit (s := S1x4096x128) ![0, 0, 0] S1x4096x128.size inb_S1x4096x128_S1x4096x128_0_0_0
abbrev rAllM : Rect S4096x128 := Rect.unit (s := S4096x128) ![0, 0] S4096x128.size inb_S4096x128_S4096x128_0_0
abbrev rAllC : Rect S1x4096 := Rect.unit (s := S1x4096) ![0, 0] S1x4096.size inb_S1x4096_S1x4096_0_0
abbrev rAllW : Rect S1x128 := Rect.unit (s := S1x128) ![0, 0] S1x128.size inb_S1x128_S1x128_0_0

/-! ## One trip of each loop, opened once -/

/-- One trip of the first loop stores one tile into each of three buffers: the block's part of `P · x`, the block's rows of
    `exp P`, and the running column sums; only the last depends on what the trip found (the sums so far). -/
theorem trip1_pieces (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
    (X_arg5 : BufTy.Contents (Elt F) arg5.view.ty) (X_arg6 : BufTy.Contents (Elt F) arg6.view.ty) (k : Fin k0_t1_loop.trips)
    (f_arg7 : BufTy.Contents (Elt F) arg7.view.ty) (f_arg8 : BufTy.Contents (Elt F) arg8.view.ty) (f_arg9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 X_arg5 X_arg6 k f_arg7 f_arg8 f_arg9
      = ([⟨rRows k, k0_pay9 (View.readAt (Elt F) arg5.view (rRows k).toLoadRect X_arg5) (View.readAt (Elt F) arg5.view rAllM.toLoadRect X_arg5)
              (View.readAt (Elt F) arg6.view rAllM.toLoadRect X_arg6)⟩],
         [⟨rRowsSq k, k0_pay8 (View.readAt (Elt F) arg5.view (rRows k).toLoadRect X_arg5) (View.readAt (Elt F) arg5.view rAllM.toLoadRect X_arg5)⟩],
         [⟨rAllC, k0_pay7 (View.readAt (Elt F) arg5.view (rRows k).toLoadRect X_arg5) (View.readAt (Elt F) arg5.view rAllM.toLoadRect X_arg5)
              (View.readAt (Elt F) arg9.view rAllC.toLoadRect f_arg9)⟩]) := by
  unfold tripL_k0_t1 trip_k0_t1
  rfl

/-- One trip of the second loop stores the block's 128 rows of the result, computed from the block's rows of `exp P` and of
    `P · x`, the column sums, the copy of x, the block's rows of x, and the two feature vectors. -/
theorem trip2_pieces (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
    (v22 : Vec F S1x4096 .f32) (X_arg1 : BufTy.Contents (Elt F) arg1.view.ty) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (k : Fin k0_t2_loop.trips) :
    tripL_k0_t2 (F := F) 𝒱 c bd i arg1 harg1 arg2 harg2 arg3 harg3 arg4 harg4 arg5 harg5 arg6 harg6 arg7 harg7 arg8 harg8 arg9 harg9 v22 X_arg1 X_arg2 X_arg3 X_arg6 X_arg7 X_arg8 k
      = [⟨rBlk k, k0_pay11 (k0_pay12 (k0_pay10 v22) (View.readAt (Elt F) arg8.view (rRowsSq' k).toLoadRect X_arg8)
              (View.readAt (Elt F) arg6.view rAllM.toLoadRect X_arg6) (View.readAt (Elt F) arg7.view (rRows' k).toLoadRect X_arg7)
              (View.readAt (Elt F) arg1.view (rBlk k).toLoadRect X_arg1) (View.readAt (Elt F) arg2.view rAllW.toLoadRect X_arg2))
            (View.readAt (Elt F) arg3.view rAllW.toLoadRect X_arg3)⟩] := by
  unfold tripL_k0_t2 trip_k0_t2
  dsimp only
  unfold trip_k0_t2.sl.r
  rfl

/-! ## The first loop -/

/-- The running row of column sums after `k` trips of the first loop, from the row `c0` it starts at: each trip adds the block's
    column sums of `exp P`, computed from the block's unit rows and all the unit rows `XN`. -/
def colsumAfter (XN : Vec F S4096x128 .f32) (c0 : Vec F S1x4096 .f32) : ℕ → Vec F S1x4096 .f32
  | 0 => c0
  | k + 1 =>
    if h : k < k0_t1_loop.trips then
      k0_pay7 (View.ld XN (rRows ⟨k, h⟩)) (View.ld XN rAllM) (View.ld (colsumAfter XN c0 k) rAllC)
    else colsumAfter XN c0 k

/-- A store through the whole of a 4096 × 128 buffer reads back as its payload, whatever was there. -/
theorem read_cons_allM {e : EltTy} (M : Memref sig .tc .vmem S4096x128 e) (f : BufTy.Contents (Elt F) M.view.ty)
    (w : rAllM.shape.Idx → Elt F e) (L : List (View.Piece (Elt F) S4096x128 e)) :
    M.view.read (Elt F) (M.view.writes (Elt F) f ((⟨rAllM, w⟩ : View.Piece (Elt F) S4096x128 e) :: L)) = w := by
  funext y
  exact View.read_writes_cons_unit_of_mem M.view f inb_S4096x128_S4096x128_0_0 w L y y rfl
    (Fin.forall_fin_two.mpr ⟨(Nat.zero_add _).symm, (Nat.zero_add _).symm⟩)

section Loop1

variable (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
  (X5 : BufTy.Contents (Elt F) arg5.view.ty) (X6 : BufTy.Contents (Elt F) arg6.view.ty)
  (G7 : BufTy.Contents (Elt F) arg7.view.ty) (G8 : BufTy.Contents (Elt F) arg8.view.ty) (G9 : BufTy.Contents (Elt F) arg9.view.ty)

/-- Block `j`'s part of `P · x`, and its rows of `exp P`, from what the two read-only scratch buffers hold. -/
abbrev partOf (j : Fin k0_t1_loop.trips) : (⟨S4096x128.rank, S128x128.size⟩ : Shape).Idx → Elt F .f32 :=
  k0_pay9 (View.readAt (Elt F) arg5.view (rRows j).toLoadRect X5) (View.readAt (Elt F) arg5.view rAllM.toLoadRect X5)
    (View.readAt (Elt F) arg6.view rAllM.toLoadRect X6)
abbrev expOf (j : Fin k0_t1_loop.trips) : (⟨S4096x4096.rank, S128x4096.size⟩ : Shape).Idx → Elt F .bf16 :=
  k0_pay8 (View.readAt (Elt F) arg5.view (rRows j).toLoadRect X5) (View.readAt (Elt F) arg5.view rAllM.toLoadRect X5)

/-- A store through the whole row of column sums reads back as its payload, whatever was there. -/
theorem read_cons_allC (f : BufTy.Contents (Elt F) arg9.view.ty) (w : rAllC.shape.Idx → Elt F .f32) (L : List (View.Piece (Elt F) S1x4096 .f32)) :
    arg9.view.read (Elt F) (arg9.view.writes (Elt F) f ((⟨rAllC, w⟩ : View.Piece (Elt F) S1x4096 .f32) :: L)) = w := by
  funext y
  exact View.read_writes_cons_unit_of_mem arg9.view f inb_S1x4096_S1x4096_0_0 w L y y rfl
    (Fin.forall_fin_two.mpr ⟨(Nat.zero_add _).symm, (Nat.zero_add _).symm⟩)

/-- After `k` trips the first loop has written `k` tiles of `P · x`, `k` tiles of `exp P`, and the row of column sums holds
    `colsumAfter … k`. -/
theorem loop1_lists (k : ℕ) (hk : k ≤ k0_t1_loop.trips) :
    (pb_k0_t1 (F := F) 𝒱 c bd i arg1 harg1 arg2 harg2 arg3 harg3 arg4 harg4 arg5 harg5 arg6 harg6 arg7 harg7 arg8 harg8 arg9 harg9 X5 X6 G7 G8 G9 k).1
        = View.tilePieces (s := S4096x128) S128x128.size k0_off1 k0_off1_inb (partOf arg5 arg6 X5 X6) k hk
    ∧ (pb_k0_t1 (F := F) 𝒱 c bd i arg1 harg1 arg2 harg2 arg3 harg3 arg4 harg4 arg5 harg5 arg6 harg6 arg7 harg7 arg8 harg8 arg9 harg9 X5 X6 G7 G8 G9 k).2.1
        = View.tilePieces (s := S4096x4096) S128x4096.size k0_off2 k0_off2_inb (expOf arg5 X5) k hk
    ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 X5 X6 G7 G8 G9 k).2.2)
        = colsumAfter (arg5.view.read (Elt F) X5) (arg9.view.read (Elt F) G9) k := by
  induction k with
  | zero => exact ⟨rfl, rfl, rfl⟩
  | succ k ih =>
    have hk' : k < k0_t1_loop.trips := hk
    obtain ⟨ih7, ih8, ih9⟩ := ih (Nat.le_of_succ_le hk)
    have e := pb_k0_t1_succ (F := F) 𝒱 c bd i arg1 harg1 arg2 harg2 arg3 harg3 arg4 harg4 arg5 harg5 arg6 harg6 arg7 harg7 arg8 harg8 arg9 harg9 X5 X6 G7 G8 G9 ⟨k, hk'⟩
    rw [show pb_k0_t1 (F := F) 𝒱 c bd i arg1 harg1 arg2 harg2 arg3 harg3 arg4 harg4 arg5 harg5 arg6 harg6 arg7 harg7 arg8 harg8 arg9 harg9 X5 X6 G7 G8 G9 (k + 1) = _ from e, trip1_pieces]
    refine ⟨?_, ?_, ?_⟩
    · show _ :: _ = _
      rw [ih7]; rfl
    · show _ :: _ = _
      rw [ih8]; rfl
    · show arg9.view.read (Elt F) (arg9.view.writes (Elt F) G9 (_ :: _)) = _
      rw [read_cons_allC, colsumAfter, dif_pos hk', ← ih9]
      rfl

end Loop1

/-! ## What the second loop reads of the first loop's tiles -/

theorem trips1_eq : k0_t1_loop.trips = 32 := by decide +kernel
theorem trips2_eq : k0_t2_loop.trips = 32 := by decide +kernel

/-- The first loop's trip that handled the same block of rows. -/
def sameTrip (k : Fin k0_t2_loop.trips) : Fin k0_t1_loop.trips :=
  ⟨k.val, by have h := k.isLt; have e1 := trips1_eq; have e2 := trips2_eq; omega⟩

section Reads

variable (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)

/-- Rows `128 k … 128 k + 127` of the buffer of 32 tiles of `P · x` read the tile of block `k`, whatever the buffer held before:
    on the row axis an index of that block misses every other tile. -/
theorem read_part_tile (G7 : BufTy.Contents (Elt F) arg7.view.ty)
    (P : Fin k0_t1_loop.trips → (⟨S4096x128.rank, S128x128.size⟩ : Shape).Idx → Elt F .f32) (k : Fin k0_t2_loop.trips) :
    View.readAt (Elt F) arg7.view (rRows' k).toLoadRect
        (arg7.view.writes (Elt F) G7 (View.tilePieces (s := S4096x128) S128x128.size k0_off1 k0_off1_inb P k0_t1_loop.trips le_rfl))
      = P (sameTrip k) := by
  funext x
  refine View.read_tilePieces arg7.view G7 S128x128.size k0_off1 k0_off1_inb P _ le_rfl _ (sameTrip k) (sameTrip k).isLt x ?_ (0 : Fin 2) ?_
  · intro a
    show k0_off4 k a + 1 * (x a).val = k0_off1 (sameTrip k) a + (x a).val
    rw [k0_off4_eq, k0_off1_eq, Nat.one_mul]; rfl
  · intro i' hne
    have hx : (x (0 : Fin 2)).val < 128 := (x (0 : Fin 2)).isLt
    have hne' : i'.val ≠ k.val := fun h => hne (Fin.ext h)
    show k0_off4 k 0 + 1 * (x (0 : Fin 2)).val < k0_off1 i' 0 ∨ k0_off1 i' 0 + 128 ≤ k0_off4 k 0 + 1 * (x (0 : Fin 2)).val
    rw [k0_off4_eq, k0_off1_eq]
    show 128 * k.val + 1 * (x (0 : Fin 2)).val < 128 * i'.val ∨ 128 * i'.val + 128 ≤ 128 * k.val + 1 * (x (0 : Fin 2)).val
    omega

/-- The same for the square buffer of 32 tiles of `exp P`. -/
theorem read_exp_tile (G8 : BufTy.Contents (Elt F) arg8.view.ty)
    (P : Fin k0_t1_loop.trips → (⟨S4096x4096.rank, S128x4096.size⟩ : Shape).Idx → Elt F .bf16) (k : Fin k0_t2_loop.trips) :
    View.readAt (Elt F) arg8.view (rRowsSq' k).toLoadRect
        (arg8.view.writes (Elt F) G8 (View.tilePieces (s := S4096x4096) S128x4096.size k0_off2 k0_off2_inb P k0_t1_loop.trips le_rfl))
      = P (sameTrip k) := by
  funext x
  refine View.read_tilePieces arg8.view G8 S128x4096.size k0_off2 k0_off2_inb P _ le_rfl _ (sameTrip k) (sameTrip k).isLt x ?_ (0 : Fin 2) ?_
  · intro a
    show k0_off3 k a + 1 * (x a).val = k0_off2 (sameTrip k) a + (x a).val
    rw [k0_off3_eq, k0_off2_eq, Nat.one_mul]; rfl
  · intro i' hne
    have hx : (x (0 : Fin 2)).val < 128 := (x (0 : Fin 2)).isLt
    have hne' : i'.val ≠ k.val := fun h => hne (Fin.ext h)
    show k0_off3 k 0 + 1 * (x (0 : Fin 2)).val < k0_off2 i' 0 ∨ k0_off2 i' 0 + 128 ≤ k0_off3 k 0 + 1 * (x (0 : Fin 2)).val
    rw [k0_off3_eq, k0_off2_eq]
    show 128 * k.val + 1 * (x (0 : Fin 2)).val < 128 * i'.val ∨ 128 * i'.val + 128 ≤ 128 * k.val + 1 * (x (0 : Fin 2)).val
    omega

end Reads

/-! ## The second loop -/

section Loop2

variable (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
  (v22 : Vec F S1x4096 .f32) (X1 : BufTy.Contents (Elt F) arg1.view.ty) (X2 : BufTy.Contents (Elt F) arg2.view.ty) (X3 : BufTy.Contents (Elt F) arg3.view.ty)
  (X6 : BufTy.Contents (Elt F) arg6.view.ty) (X7 : BufTy.Contents (Elt F) arg7.view.ty) (X8 : BufTy.Contents (Elt F) arg8.view.ty)

/-- Block `j`'s 128 rows of the result, from what the buffers hold during the second loop. -/
abbrev rowsOutOf (j : Fin k0_t2_loop.trips) : (⟨S1x4096x128.rank, S1x128x128.size⟩ : Shape).Idx → Elt F .f32 :=
  k0_pay11 (k0_pay12 (k0_pay10 v22) (View.readAt (Elt F) arg8.view (rRowsSq' j).toLoadRect X8)
      (View.readAt (Elt F) arg6.view rAllM.toLoadRect X6) (View.readAt (Elt F) arg7.view (rRows' j).toLoadRect X7)
      (View.readAt (Elt F) arg1.view (rBlk j).toLoadRect X1) (View.readAt (Elt F) arg2.view rAllW.toLoadRect X2))
    (View.readAt (Elt F) arg3.view rAllW.toLoadRect X3)

/-- After `k` trips the second loop has written `k` tiles of 128 rows of the result. -/
theorem loop2_list (k : ℕ) (hk : k ≤ k0_t2_loop.trips) :
    pb_k0_t2 (F := F) 𝒱 c bd i arg1 harg1 arg2 harg2 arg3 harg3 arg4 harg4 arg5 harg5 arg6 harg6 arg7 harg7 arg8 harg8 arg9 harg9 v22 X1 X2 X3 X6 X7 X8 k
      = View.tilePieces (s := S1x4096x128) S1x128x128.size k0_off5 k0_off5_inb
          (rowsOutOf arg1 arg2 arg3 arg6 arg7 arg8 v22 X1 X2 X3 X6 X7 X8) k hk := by
  induction k with
  | zero => rfl
  | succ k ih =>
    have hk' : k < k0_t2_loop.trips := hk
    have e := pb_k0_t2_succ (F := F) 𝒱 c bd i arg1 harg1 arg2 harg2 arg3 harg3 arg4 harg4 arg5 harg5 arg6 harg6 arg7 harg7 arg8 harg8 arg9 harg9 v22 X1 X2 X3 X6 X7 X8 ⟨k, hk'⟩
    rw [show pb_k0_t2 (F := F) 𝒱 c bd i arg1 harg1 arg2 harg2 arg3 harg3 arg4 harg4 arg5 harg5 arg6 harg6 arg7 harg7 arg8 harg8 arg9 harg9 v22 X1 X2 X3 X6 X7 X8 (k + 1) = _ from e, trip2_pieces, ih (Nat.le_of_succ_le hk)]
    rfl

end Loop2

/-! ## The output block as one function of the input blocks -/

/-- The rows of the input block scaled to unit length, and the copy of the input block. -/
def unitRows (x0 : Vec F S1x4096x128 .f32) : Vec F S4096x128 .f32 := k0_pay2 (View.ld x0 rAllX)
def copyRows (x0 : Vec F S1x4096x128 .f32) : Vec F S4096x128 .bf16 := k0_pay3 (View.ld x0 rAllX)

/-- The column sums of `exp P` over all 32 blocks, from the zero row. -/
def colsumAll (x0 : Vec F S1x4096x128 .f32) : Vec F S1x4096 .f32 :=
  colsumAfter (unitRows x0) (k0_pay4 (F := F)) k0_t1_loop.trips

/-- Block `j`'s 128 rows of the result, from the input blocks alone. -/
def outTile (x0 : Vec F S1x4096x128 .f32) (x1 x2 : Vec F S1x128 .f32) (j : Fin k0_t2_loop.trips) :
    (⟨S1x4096x128.rank, S1x128x128.size⟩ : Shape).Idx → Elt F .f32 :=
  k0_pay11 (k0_pay12 (k0_pay10 (View.ld (colsumAll x0) rAllC))
      (k0_pay8 (View.ld (unitRows x0) (rRows (sameTrip j))) (View.ld (unitRows x0) rAllM))
      (View.ld (copyRows x0) rAllM)
      (k0_pay9 (View.ld (unitRows x0) (rRows (sameTrip j))) (View.ld (unitRows x0) rAllM) (View.ld (copyRows x0) rAllM))
      (View.ld x0 (rBlk j)) (View.ld x1 rAllW))
    (View.ld x2 rAllW)

/-- Row `n < 4096` lies in one of the 32 blocks. -/
theorem blockOf_lt (y : S1x4096x128.Idx) : (y (1 : Fin 3)).val / 128 < k0_t2_loop.trips := by
  have h : (y (1 : Fin 3)).val < 4096 := (y (1 : Fin 3)).isLt
  have e2 := trips2_eq
  omega

/-- The whole output block: row `n` lies in block `n / 128`, at row `n % 128` of its tile. -/
def outBlock (x0 : Vec F S1x4096x128 .f32) (x1 x2 : Vec F S1x128 .f32) : Vec F S1x4096x128 .f32 := fun y =>
  outTile x0 x1 x2 ⟨(y (1 : Fin 3)).val / 128, blockOf_lt y⟩
    (ValueIdx.ix3 (0 : Fin 1) (⟨(y (1 : Fin 3)).val % 128, Nat.mod_lt _ (by decide)⟩ : Fin 128)
      (⟨(y (2 : Fin 3)).val, (y (2 : Fin 3)).isLt⟩ : Fin 128))

/-- The 32 tiles of the result written over anything read back as the output block. -/
theorem read_out_tiles (arg4 : Memref sig .tc .vmem S1x4096x128 .f32) (f3 : BufTy.Contents (Elt F) arg4.view.ty)
    (x0 : Vec F S1x4096x128 .f32) (x1 x2 : Vec F S1x128 .f32) :
    arg4.view.read (Elt F) (arg4.view.writes (Elt F) f3
        (View.tilePieces (s := S1x4096x128) S1x128x128.size k0_off5 k0_off5_inb (outTile x0 x1 x2) k0_t2_loop.trips le_rfl))
      = outBlock x0 x1 x2 := by
  funext y
  have h0 : (y (0 : Fin 3)).val < 1 := (y (0 : Fin 3)).isLt
  have h1 : (y (1 : Fin 3)).val < 4096 := (y (1 : Fin 3)).isLt
  have hlt : (y (1 : Fin 3)).val / 128 < k0_t2_loop.trips := blockOf_lt y
  refine View.read_tilePieces arg4.view f3 S1x128x128.size k0_off5 k0_off5_inb (outTile x0 x1 x2) _ le_rfl y
    ⟨(y (1 : Fin 3)).val / 128, hlt⟩ hlt _ ?_ (1 : Fin 3) ?_
  · intro a
    rw [k0_off5_eq]
    match a with
    | ⟨0, _⟩ => show (y (0 : Fin 3)).val = 0 + 0; omega
    | ⟨1, _⟩ => show (y (1 : Fin 3)).val = 128 * ((y (1 : Fin 3)).val / 128) + (y (1 : Fin 3)).val % 128; omega
    | ⟨2, _⟩ => show (y (2 : Fin 3)).val = 0 + (y (2 : Fin 3)).val; omega
  · intro i' hne
    have hne' : i'.val ≠ (y (1 : Fin 3)).val / 128 := fun h => hne (Fin.ext h)
    rw [k0_off5_eq]
    show (y (1 : Fin 3)).val < 128 * i'.val ∨ 128 * i'.val + 128 ≤ (y (1 : Fin 3)).val
    omega

/-! ## The body's output, whatever the scratch buffers held -/

section Value

variable (𝒱 : Variants) (c : Dev nD) (bd : Option 𝒱.V) (i : grid0.Coords) (arg1 : Memref sig .tc .vmem S1x4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x4096x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x4096 .bf16) (harg8 : arg8.IsWhole) (arg9 : Memref sig .tc .vmem S1x4096 .f32) (harg9 : arg9.IsWhole)
  (x0 : Vec F S1x4096x128 .f32) (x1 x2 : Vec F S1x128 .f32)
  (X1 : BufTy.Contents (Elt F) arg1.view.ty) (X2 : BufTy.Contents (Elt F) arg2.view.ty) (X3 : BufTy.Contents (Elt F) arg3.view.ty)
  (X5 : BufTy.Contents (Elt F) arg5.view.ty) (X6 : BufTy.Contents (Elt F) arg6.view.ty)
  (G7 : BufTy.Contents (Elt F) arg7.view.ty) (G8 : BufTy.Contents (Elt F) arg8.view.ty) (G9 : BufTy.Contents (Elt F) arg9.view.ty)
  (f3 : BufTy.Contents (Elt F) arg4.view.ty)

/-- When the three input memrefs read the input blocks, the two read-only scratch buffers read the unit rows and the copy, and
    the row of column sums starts at zero, the 32 tiles the second loop leaves in the output memref — each computed from
    what the first loop wrote over arbitrary contents `G7`, `G8` — read back as `outBlock` of the input blocks. -/
theorem body_value
    (h1 : arg1.view.read (Elt F) X1 = x0) (h2 : arg2.view.read (Elt F) X2 = x1) (h3 : arg3.view.read (Elt F) X3 = x2)
    (h5 : arg5.view.read (Elt F) X5 = unitRows x0) (h6 : arg6.view.read (Elt F) X6 = copyRows x0)
    (h9 : arg9.view.read (Elt F) G9 = k0_pay4 (F := F)) (v22 : Vec F S1x4096 .f32)
    (hv : v22 = View.readAt (Elt F) arg9.view rAllC.toLoadRect (arg9.view.writes (Elt F) G9 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).2.2)) :
    arg4.view.read (Elt F) (arg4.view.writes (Elt F) f3
        (pb_k0_t2 (F := F) 𝒱 c bd i arg1 harg1 arg2 harg2 arg3 harg3 arg4 harg4 arg5 harg5 arg6 harg6 arg7 harg7 arg8 harg8 arg9 harg9 v22 X1 X2 X3 X6
          (arg7.view.writes (Elt F) G7 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).1) (arg8.view.writes (Elt F) G8 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).2.1) k0_t2_loop.trips))
      = outBlock x0 x1 x2 := by
  obtain ⟨e7, e8, e9⟩ := loop1_lists (F := F) 𝒱 c bd i arg1 harg1 arg2 harg2 arg3 harg3 arg4 harg4 arg5 harg5 arg6 harg6 arg7 harg7 arg8 harg8 arg9 harg9 X5 X6 G7 G8 G9 k0_t1_loop.trips le_rfl
  rw [loop2_list (F := F) 𝒱 c bd i arg1 harg1 arg2 harg2 arg3 harg3 arg4 harg4 arg5 harg5 arg6 harg6 arg7 harg7 arg8 harg8 arg9 harg9 v22 X1 X2 X3 X6 _ _ k0_t2_loop.trips le_rfl]
  have hT : rowsOutOf arg1 arg2 arg3 arg6 arg7 arg8 v22 X1 X2 X3 X6
        (arg7.view.writes (Elt F) G7 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).1) (arg8.view.writes (Elt F) G8 (pb_k0_t1 (F := F) 𝒱 c bd i arg1 harg1 arg2 harg2 arg3 harg3 arg4 harg4 arg5 harg5 arg6 harg6 arg7 harg7 arg8 harg8 arg9 harg9 X5 X6 G7 G8 G9 k0_t1_loop.trips).2.1)
      = outTile x0 x1 x2 := by
    funext j
    unfold rowsOutOf
    rw [e7, e8, read_part_tile, read_exp_tile, hv]
    unfold outTile colsumAll partOf expOf
    simp only [View.readAt_eq_ld, h1, h2, h3, h5, h6, h9, e9]
  rw [hT]
  exact read_out_tiles arg4 f3 x0 x1 x2

end Value

end Cert.KernelIdeal.GenP

end
-- ==== Proof.KArray.lean ====
/-
  From the blocks to the whole array.

  The grid has one point per batch.  At point `t` the first input window holds batch `t` of `x` (its block index is
  `(t, 0, 0)`), the other two input windows hold the two feature vectors, which the host has reshaped from [128] to
  [1,128] before the region, and the output window writes back its block to batch `t` of the result.  The four
  output blocks are disjoint and together cover the result, so the result array is, index by index, the body's
  function of batch `i₀` of `x` and of the two feature rows, read at row `i₁` and feature `i₂`.
-/
import proofs.«114507_j55405078118436_2_alg».proof.Proof.KValueP
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.GenP Cert.KernelIdeal.ValueP
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The blocks, as functions of the argument arrays -/

/-- Batch `b` of a [4,4096,128] array, as a [1,4096,128] block. -/
def xBlock (A : S4x4096x128.Idx → Elt F .f32) (b : Fin 4) : Vec F S1x4096x128 .f32 :=
  fun y => A (ValueIdx.ix3 b (⟨(y 1).val, (y 1).isLt⟩ : Fin 4096) (⟨(y 2).val, (y 2).isLt⟩ : Fin 128))

/-- A [128] vector read as the [1,128] row. -/
def rowOf (w : S128.Idx → Elt F .f32) : Vec F S1x128 .f32 :=
  fun y => w (ValueIdx.ix1 (⟨(y 1).val, (y 1).isLt⟩ : Fin 128))

/-- The result array: at `(i₀, i₁, i₂)` the body's output block for batch `i₀`, read at `(0, i₁, i₂)`. -/
def outArray (A : S4x4096x128.Idx → Elt F .f32) (w1 w2 : S128.Idx → Elt F .f32) : S4x4096x128.Idx → Elt F .f32 :=
  fun i => outBlock (xBlock A (⟨(i 0).val, (i 0).isLt⟩ : Fin 4)) (rowOf w1) (rowOf w2)
    (ValueIdx.ix3 (0 : Fin 1) (⟨(i 1).val, (i 1).isLt⟩ : Fin 4096) (⟨(i 2).val, (i 2).isLt⟩ : Fin 128))

/-- The result array at an index of batch `b` whose row and feature are those of the block index `y`. -/
theorem outArray_at (A : S4x4096x128.Idx → Elt F .f32) (w1 w2 : S128.Idx → Elt F .f32) (b : Fin 4)
    (y : S1x4096x128.Idx) (i : S4x4096x128.Idx) (h0 : (i 0).val = b.val) (h1 : (i 1).val = (y 1).val)
    (h2 : (i 2).val = (y 2).val) :
    outArray A w1 w2 i = outBlock (xBlock A b) (rowOf w1) (rowOf w2) y := by
  have eb : (⟨(i 0).val, (i 0).isLt⟩ : Fin 4) = b := Fin.ext h0
  have ey : ValueIdx.ix3 (0 : Fin 1) (⟨(i 1).val, (i 1).isLt⟩ : Fin 4096) (⟨(i 2).val, (i 2).isLt⟩ : Fin 128) = y := by
    funext a; apply Fin.ext
    match a with
    | ⟨0, _⟩ => show 0 = (y 0).val; have h : (y 0).val < 1 := (y 0).isLt; omega
    | ⟨1, _⟩ => exact h1
    | ⟨2, _⟩ => exact h2
  show outBlock (xBlock A (⟨(i 0).val, (i 0).isLt⟩ : Fin 4)) (rowOf w1) (rowOf w2)
    (ValueIdx.ix3 (0 : Fin 1) (⟨(i 1).val, (i 1).isLt⟩ : Fin 4096) (⟨(i 2).val, (i 2).isLt⟩ : Fin 128)) = _
  rw [eb, ey]

/-! ## The windows' index maps -/

/-- The printed index maps, decided over the four grid points: the first input window and the output window are at
    block `(t, 0, 0)`, the two feature rows at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point is a batch. -/
theorem point_lt (t : Fin cfg0.N) : t.val < 4 := lt_of_lt_of_eq t.isLt N_0

/-! ## The input blocks at a point -/

/-- The first input window's block at point `t` is batch `t` of the first argument. -/
theorem iblk0_eq (c : Dev nD) (t : Fin cfg0.N) :
    iblk m c 0 t = xBlock (m ((c : Thread nD τ).loc main_arg0)) ⟨t.val, point_lt t⟩ := by
  obtain ⟨e0, e1, e2, -⟩ := idx_facts t
  refine funext fun (y : S1x4096x128.Idx) => ?_
  show V m c main_arg0 (((cfg0.win 0).blk t).view.emb y) = _
  rw [V_main_arg0]
  refine congrArg (m ((c : Thread nD τ).loc main_arg0)) (funext fun a => Fin.ext ?_)
  have h0 : (y 0).val < 1 := (y 0).isLt
  match a with
  | ⟨0, _⟩ => show win0_0.index t (0 : Fin 3) * 1 + 1 * (y 0).val = t.val; omega
  | ⟨1, _⟩ => show win0_0.index t (1 : Fin 3) * 4096 + 1 * (y 1).val = (y 1).val; omega
  | ⟨2, _⟩ => show win0_0.index t (2 : Fin 3) * 128 + 1 * (y 2).val = (y 2).val; omega

/-- The [1,128] arrays the region finds are the host's reshapes of the two [128] arguments. -/
theorem V_main_v0 (c : Dev nD) :
    (V m c main_v0 : S1x128.Idx → Elt F .f32)
      = shapeCast S1x128 (m ((c : Thread nD τ).loc main_arg1)) shapeCasts_S128_S1x128 := by
  dsimp only [Gen.V, Gen.hostOps0]
  after_results
  rfl

theorem V_main_v1 (c : Dev nD) :
    (V m c main_v1 : S1x128.Idx → Elt F .f32)
      = shapeCast S1x128 (m ((c : Thread nD τ).loc main_arg2)) shapeCasts_S128_S1x128 := by
  dsimp only [Gen.V, Gen.hostOps0]
  after_results
  rfl

/-- A [128] vector reshaped to [1,128] is its row. -/
theorem shapeCast_row (w : S128.Idx → Elt F .f32) (j : S1x128.Idx) (h0 : (j 0).val = 0) (y : S1x128.Idx)
    (h1 : (j 1).val = (y 1).val) : shapeCast S1x128 w shapeCasts_S128_S1x128 j = rowOf w y := by
  refine shapeCast_apply w shapeCasts_S128_S1x128 j (ValueIdx.ix1 (⟨(y 1).val, (y 1).isLt⟩ : Fin 128)) ?_
  rw [Shape.rowMajor_val_two, Shape.rowMajor_val_one]
  show (y 1).val = (j 0).val * 128 + (j 1).val
  omega

/-- The second and third input windows' blocks at any point are the two feature rows. -/
theorem iblk1_eq (c : Dev nD) (t : Fin cfg0.N) : iblk m c 1 t = rowOf (m ((c : Thread nD τ).loc main_arg1)) := by
  obtain ⟨-, -, -, e3, e4, -⟩ := idx_facts t
  refine funext fun (y : S1x128.Idx) => ?_
  show V m c main_v0 (((cfg0.win 1).blk t).view.emb y) = _
  rw [V_main_v0]
  have h0 : (y 0).val < 1 := (y 0).isLt
  refine shapeCast_row _ _ ?_ y ?_
  · show win0_1.index t (0 : Fin 2) * 1 + 1 * (y 0).val = 0; omega
  · show win0_1.index t (1 : Fin 2) * 128 + 1 * (y 1).val = (y 1).val; omega

theorem iblk2_eq (c : Dev nD) (t : Fin cfg0.N) : iblk m c 2 t = rowOf (m ((c : Thread nD τ).loc main_arg2)) := by
  obtain ⟨-, -, -, -, -, e5, e6, -⟩ := idx_facts t
  refine funext fun (y : S1x128.Idx) => ?_
  show V m c main_v1 (((cfg0.win 2).blk t).view.emb y) = _
  rw [V_main_v1]
  have h0 : (y 0).val < 1 := (y 0).isLt
  refine shapeCast_row _ _ ?_ y ?_
  · show win0_2.index t (0 : Fin 2) * 1 + 1 * (y 0).val = 0; omega
  · show win0_2.index t (1 : Fin 2) * 128 + 1 * (y 1).val = (y 1).val; omega

/-! ## What each point writes back, and the cover -/

/-- What point `t` writes back is block `t` of the result array. -/
theorem flushed_eq (c : Dev nD) (t : Fin cfg0.N) :
    (dats m 0 c).flushed 3 t = ((cfg0.win 3).blk t).view.read (Elt F)
      (outArray (m ((c : Thread nD τ).loc main_arg0)) (m ((c : Thread nD τ).loc main_arg1)) (m ((c : Thread nD τ).loc main_arg2))) := by
  rw [flushed3]
  unfold outsAt0
  rw [iblk0_eq, iblk1_eq, iblk2_eq]
  obtain ⟨-, -, -, -, -, -, -, e7, e8, e9⟩ := idx_facts t
  refine funext fun (y : S1x4096x128.Idx) => ?_
  have h0 : (y 0).val < 1 := (y 0).isLt
  refine (outArray_at _ _ _ ⟨t.val, point_lt t⟩ _ (((cfg0.win 3).blk t).view.emb y) ?_ ?_ ?_).symm
  · show win0_3.index t (0 : Fin 3) * 1 + 1 * (y 0).val = t.val; omega
  · show win0_3.index t (1 : Fin 3) * 4096 + 1 * (y 1).val = (y 1).val; omega
  · show win0_3.index t (2 : Fin 3) * 128 + 1 * (y 2).val = (y 2).val; omega

/-- An index of the result is in point `t`'s block iff each coordinate is in the block's range on its axis. -/
theorem mem_blk (t : Fin cfg0.N) (i : S4x4096x128.Idx) :
    i ∈ ((cfg0.win 3).blk t).view.set ↔ ∀ a : Fin 3, win0_3.index t a * S1x4096x128.size a ≤ (i a).val
      ∧ (i a).val < win0_3.index t a * S1x4096x128.size a + S1x4096x128.size a := by
  show i ∈ ((View.whole main_v2).slice (win0_3.rect t)).set ↔ _
  rw [View.set_slice_whole, Rect.mem_set_unit]
  exact Iff.rfl

/-- Every index of the result is in the block of the point of its batch. -/
theorem cover (i : S4x4096x128.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, -, -, -, -, e7, e8, e9⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- The result array after the run. -/
theorem final (c : Dev nD) :
    (dats m 0 c).arrAt 3 cfg0.N
      = outArray (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The run, read -/

/-- The run with the result array at its function of the argument arrays, the arguments unchanged. -/
theorem kernel_run : θ_run defs (onTc (τ := τ) (main (F := F))) ⟨m, fun _ => 0, ρ⟩ fun r => ∀ c : Dev nD,
      r.2.mem ((c : Thread nD τ).loc main_v2)
        = (fun i => outBlock (xBlock (m ((c : Thread nD τ).loc main_arg0)) (⟨(i 0).val, (i 0).isLt⟩ : Fin 4))
            (rowOf (m ((c : Thread nD τ).loc main_arg1))) (rowOf (m ((c : Thread nD τ).loc main_arg2)))
            (ValueIdx.ix3 (0 : Fin 1) (⟨(i 1).val, (i 1).isLt⟩ : Fin 4096) (⟨(i 2).val, (i 2).isLt⟩ : Fin 128)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.Spec.lean ====
/-
  The mathematics both programs compute, stated once over plain index functions on the extended reals.

  For each batch `b` the input is an N × D matrix `X = x b` (N = 4096 rows, D = 128 features).
  * Each row is scaled to unit length: `xn n d = X n d / max (√(∑ d, X n d ²)) ε₁₂`.
  * The Gram matrix `∑ d, xn n d · xn m d` is scaled by the inverse temperature, and a softmax over `m`
    (shifted by the row's maximum) gives the row-stochastic matrix `P`.
  * A second softmax of `P`, now over the rows `n` of each column `m`, gives `C`.
  * `xneg = (P + C) · X`, `y = X - (1/10) · xneg`, and `y` is normalised along `d` (mean, variance, ε₆),
    scaled by `w` and shifted by `β`.

  The two programs spell four steps differently, and those are the only differences:
    the temperature        : a product with 2            |  a quotient by 1/2
    the column softmax     : `exp P · (1 / ∑ n, exp P)`  |  shifted by the column's maximum first
    the product with X     : `P · X + C · X`             |  `(P + C) · X`
    the normalisation      : a product with `(√v)⁻¹`      |  a quotient by `√v`
  `outK` is the left column's spelling and `outR` the right column's; every other stage is shared.
  Float literals are kept as their IEEE words: the same word on both sides is never evaluated.
-/
import Mathlib
import Idealize.ShloMosaic.PureOps.Ideal

noncomputable section

namespace Cert.Spec

open Idealize.ShloMosaic

/-- A batch of matrices, a square matrix per batch, a feature vector. -/
abbrev Arr := Fin 4 → Fin 4096 → Fin 128 → EReal
abbrev Sq := Fin 4 → Fin 4096 → Fin 4096 → EReal
abbrev Feat := Fin 128 → EReal

/-! ## The literals, as the words both programs print -/

/-- The floor under a row's length, 1e-12 as an f32 word. -/
def eps12 : EReal := Ideal.ofBits .f32 0x2B8CBCCC#32
/-- The inverse temperature 2, and the temperature 1/2 (both exact dyadics). -/
def two : EReal := Ideal.ofBits .f32 0x40000000#32
def half : EReal := Ideal.ofBits .f32 0x3F000000#32
/-- The scale 0.1 as an f32 word (the same word on both sides). -/
def tenth : EReal := Ideal.ofBits .f32 0x3DCCCCCD#32
/-- The number of features, 128. -/
def c128 : EReal := Ideal.ofBits .f32 0x43000000#32
/-- The variance's offset, 1e-6 as an f32 word (the same word on both sides). -/
def eps6 : EReal := Ideal.ofBits .f32 0x358637BD#32
/-- The word of 1. -/
def one : EReal := Ideal.ofBits .f32 0x3F800000#32

/-! ## The shared stages -/

/-- A row's length, floored. -/
def nrm (x : Arr) (b : Fin 4) (n : Fin 4096) : EReal :=
  max (Ideal.sqrt (∑ d, x b n d * x b n d)) eps12

/-- The rows scaled to unit length. -/
def xn (x : Arr) : Arr := fun b n d => Ideal.div (x b n d) (nrm x b n)

/-- The Gram matrix of the unit rows. -/
def gram (x : Arr) : Sq := fun b n m => ∑ d, xn x b n d * xn x b m d

/-- The softmax over the last axis, shifted by the row's maximum. -/
def rowSoftmax (S : Sq) : Sq := fun b n m =>
  Ideal.div (Ideal.exp (S b n m - Finset.univ.sup (S b n)))
    (∑ m', Ideal.exp (S b n m' - Finset.univ.sup (S b n)))

/-- `y = x - (1/10) · xneg`. -/
def resid (x xneg : Arr) : Arr := fun b n d => x b n d - tenth * xneg b n d

/-- The mean and the variance of a row of `y`. -/
def mu (y : Arr) (b : Fin 4) (n : Fin 4096) : EReal := Ideal.div (∑ d, y b n d) c128
def var (y : Arr) (b : Fin 4) (n : Fin 4096) : EReal :=
  Ideal.div (∑ d, (y b n d - mu y b n) * (y b n d - mu y b n)) c128

/-! ## The kernel's spelling -/

/-- The scaled Gram matrix: a product with 2. -/
def simK (x : Arr) : Sq := fun b n m => gram x b n m * two

/-- The column softmax without a shift: `exp P` times the reciprocal of its column sum. -/
def colK (P : Sq) : Sq := fun b n m =>
  Ideal.exp (P b n m) * Ideal.div one (∑ n', Ideal.exp (P b n' m))

/-- `P · X + C · X`. -/
def xnegK (P C : Sq) (x : Arr) : Arr := fun b n d =>
  (∑ m, P b n m * x b m d) + (∑ m, C b n m * x b m d)

/-- The normalisation as a product with the reciprocal square root. -/
def normK (y : Arr) (w β : Feat) : Arr := fun b n d =>
  (y b n d - mu y b n) * Ideal.rsqrt (var y b n + eps6) * w d + β d

/-- The kernel's result. -/
def outK (x : Arr) (w β : Feat) : Arr :=
  normK (resid x (xnegK (rowSoftmax (simK x)) (colK (rowSoftmax (simK x))) x)) w β

/-! ## The reference's spelling -/

/-- The scaled Gram matrix: a quotient by 1/2. -/
def simR (x : Arr) : Sq := fun b n m => Ideal.div (gram x b n m) half

/-- The column softmax shifted by the column's maximum. -/
def colR (P : Sq) : Sq := fun b n m =>
  Ideal.div (Ideal.exp (P b n m - Finset.univ.sup (fun n' => P b n' m)))
    (∑ n', Ideal.exp (P b n' m - Finset.univ.sup (fun n'' => P b n'' m)))

/-- `(P + C) · X`. -/
def xnegR (P C : Sq) (x : Arr) : Arr := fun b n d => ∑ m, (P b n m + C b n m) * x b m d

/-- The normalisation as a quotient by the square root. -/
def normR (y : Arr) (w β : Feat) : Arr := fun b n d =>
  Ideal.div (y b n d - mu y b n) (Ideal.sqrt (var y b n + eps6)) * w d + β d

/-- The reference's result. -/
def outR (x : Arr) (w β : Feat) : Arr :=
  normR (resid x (xnegR (rowSoftmax (simR x)) (colR (rowSoftmax (simR x))) x)) w β

end Cert.Spec

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«114507_j55405078118436_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Payloads.lean ====
/-
  The values the kernel's body stores, read at one index, at exact arithmetic (floats are extended reals).

  Each stored value is a pure function of the values loaded before it. Here every such function is read at an index
  written by its coordinates: the pointwise operations read through (a product at an index is the product of the
  entries, and so on), a change of format between 32 and 16 bits is the identity, and each operation that moves or
  combines entries is read by one lemma — a cast that drops or adds a unit axis keeps the row-major position, a
  broadcast of a row or of a column repeats it, a reduction along an axis is the sum (or the maximum) over that axis's
  coordinate, and a matrix product into the zero accumulator is the sum over the contracted coordinate.

  Nothing here is algebra: each right-hand side is the printed operations again, spelt over plain sums, suprema and
  index functions of the loaded values.
-/
import proofs.«114507_j55405078118436_2_alg».proof.Proof.Gen.KernelIdeal.Skeleton
import proofs.«114507_j55405078118436_2_alg».proof.Proof.Spec
import proofs.«114507_j55405078118436_2_alg».proof.Proof.LibKeepdims
import proofs.«114507_j55405078118436_2_alg».proof.Proof.LibColumnOps
import proofs.«114507_j55405078118436_2_alg».proof.Proof.LibRowOps
import proofs.«114507_j55405078118436_2_alg».proof.Proof.LibMatmulNT
import proofs.«114507_j55405078118436_2_alg».proof.Proof.LibMatmulIdx
import Idealize.ShloMosaic.Lib.ValueLayout
import Idealize.ShloMosaic.PureOps.Ideal.Laws

noncomputable section

namespace Cert.KernelBody

open Cert.KernelIdeal Cert.KernelIdeal.Gen Idealize.ShloMosaic Idealize.ShloMosaic.ValueIdx

/-! ## The copies and the constants -/

/-- The 16-bit copy of the input: the input's entry (the format change is the identity on extended reals, and the
    cast that drops the leading unit axis keeps the position). -/
theorem pay3_apply (v0 : FVec Ideal S1x4096x128 .f32) (n : Fin 4096) (d : Fin 128) :
    k0_pay3 (F := Ideal) v0 (ix2 n d) = v0 (ix3 (0 : Fin 1) n d) := by
  unfold k0_pay3 k0_pay1
  rw [shapeCast_self]
  exact shapeCast_1ab_ab_apply v0 _ n d

/-- The column sums start from the zero row. -/
theorem pay4_apply (m : Fin 4096) : k0_pay4 (F := Ideal) (ix2 (0 : Fin 1) m) = 0 := by
  unfold k0_pay4
  rw [shapeCast_self]
  exact Ideal.ofBits_zero_f32

/-- The reciprocal of a column sum: the quotient of the word of 1 by it. -/
theorem pay10_apply (v22 : FVec Ideal S1x4096 .f32) (m : Fin 4096) :
    k0_pay10 (F := Ideal) v22 (ix2 (0 : Fin 1) m) = Ideal.div Cert.Spec.one (v22 (ix2 (0 : Fin 1) m)) := by
  unfold k0_pay10
  rfl

/-- The result's block: the normalised rows plus the shift, the shift's one row repeated along the rows. -/
theorem pay11_apply (v66 : FVec Ideal S128x128 .f32) (v67 : FVec Ideal S1x128 .f32) (r d : Fin 128) :
    k0_pay11 (F := Ideal) v66 v67 (ix3 (0 : Fin 1) r d) = v66 (ix2 r d) + v67 (ix2 (0 : Fin 1) d) := by
  unfold k0_pay11
  rw [shapeCast_ab_1ab_apply, addf_apply, shapeCast_self]
  exact congrArg (v66 (ix2 r d) + ·) (broadcastTo_1b_ab_apply v67 _ r d)

/-! ## The rows scaled to unit length -/

/-- The input with its leading unit axis dropped. -/
theorem pay1_apply (v0 : FVec Ideal S1x4096x128 .f32) (n : Fin 4096) (d : Fin 128) :
    k0_pay1 (F := Ideal) v0 (ix2 n d) = v0 (ix3 (0 : Fin 1) n d) := by
  unfold k0_pay1
  exact shapeCast_1ab_ab_apply v0 _ n d

/-- A row's entry over the row's length, the length floored: the sum of squares along the row is kept as a column,
    its root is floored entrywise, and the column is repeated along the row. -/
theorem pay2_apply (v0 : FVec Ideal S1x4096x128 .f32) (n : Fin 4096) (d : Fin 128) :
    k0_pay2 (F := Ideal) v0 (ix2 n d)
      = Ideal.div (v0 (ix3 (0 : Fin 1) n d))
          (max (Ideal.sqrt (∑ d' : Fin 128, v0 (ix3 (0 : Fin 1) n d') * v0 (ix3 (0 : Fin 1) n d'))) Cert.Spec.eps12) := by
  unfold k0_pay2
  rw [shapeCast_self, divf_apply, pay1_apply]
  refine congrArg (Ideal.div _) ?_
  refine (LibColumnOps.broadcastTo_col_apply _ _ n d).trans ?_
  show max (Ideal.sqrt (shapeCast S4096x1 _ _ (ix2 n (0 : Fin 1)))) Cert.Spec.eps12 = _
  refine congrArg (fun t => max (Ideal.sqrt t) Cert.Spec.eps12) ?_
  refine (LibKeepdims.shapeCast_col_apply _ _ n 0).trans ?_
  refine (LibKeepdims.sum_axis1_apply _ _ _ _ _ n).trans ?_
  exact Finset.sum_congr rfl fun q _ => by rw [mulf_apply, pay1_apply]

/-! ## The row softmax -/

/-- The word 0xFF800000 is minus infinity, the least extended real. -/
theorem ofBits_neg_inf_f32 : Ideal.ofBits .f32 0xFF800000#32 = ⊥ := by
  simp [Ideal.ofBits, Ideal.ieee]

/-- The scaled product of row `r` of the block with row `m` of the whole matrix: the entry the softmax is taken of. -/
def sim (v29 : FVec Ideal S128x128 .f32) (v30 : FVec Ideal S4096x128 .f32) (r : Fin 128) (m : Fin 4096) : EReal :=
  (∑ d : Fin 128, v29 (ix2 r d) * v30 (ix2 m d)) * Cert.Spec.two

/-- The printed scaled product: the block times the transposed matrix into the zero accumulator, times the splat of 2. -/
def simVec (v29 : FVec Ideal S128x128 .f32) (v30 : FVec Ideal S4096x128 .f32) : FVec Ideal S128x4096 .f32 :=
  mulf (matmul dot_S128x128_S4096x128_S128x4096_1_1_0_0_n_n (some .fp32) v29 v30 (constant S128x4096 .f32 0x00000000#32))
    (broadcast S128x4096 (Scalar.ofBits .f32 0x40000000#32))

theorem simVec_apply (v29 : FVec Ideal S128x128 .f32) (v30 : FVec Ideal S4096x128 .f32) (r : Fin 128) (m : Fin 4096) :
    simVec v29 v30 (ix2 r m) = sim v29 v30 r m := by
  unfold simVec sim
  rw [mulf_apply]
  refine congrArg (· * Cert.Spec.two) ?_
  exact LibMatmulNT.matmul_nt_zero_apply dot_S128x128_S4096x128_S128x4096_1_1_0_0_n_n rfl rfl
    (fun _ _ => rfl) (fun _ _ => rfl) (fun _ _ => rfl) (fun _ _ => rfl) (some .fp32) v29 v30 (ix2 r m)

/-- A 128 × 4096 matrix's row maxima from minus infinity, kept as a column and repeated along the rows. -/
def rowMaxVec (y : FVec Ideal S128x4096 .f32) : FVec Ideal S128x4096 .f32 :=
  broadcastTo S128x4096
    (shapeCast S128x1 (multiReduction .maximumf [1] S128 y 0xFF800000#32 reduces_S128x4096_S128 (.inl rfl) rfl) shapeCasts_S128_S128x1)
    broadcasts_S128x1_S128x4096

/-- At (r, m) it is the supremum of row r. -/
theorem rowMaxVec_apply (y : FVec Ideal S128x4096 .f32) (s : Fin 4096 → EReal) (r : Fin 128)
    (hs : ∀ m, y (ix2 r m) = s m) (m : Fin 4096) : rowMaxVec y (ix2 r m) = Finset.univ.sup s := by
  unfold rowMaxVec
  refine (LibColumnOps.broadcastTo_col_apply _ _ r m).trans ?_
  refine (LibKeepdims.shapeCast_col_apply _ _ r 0).trans ?_
  refine (LibColumnOps.max_axis1_apply y _ _ _ _ r).trans ?_
  have h : (fun k => y (ix2 r k)) = s := funext hs
  rw [h, ofBits_neg_inf_f32]
  rfl

/-- The softmax along the rows as it is printed: the exponentials of the entries less their row's maximum, over their
    row sums (each row's sum kept as a column and repeated along the row). -/
def softmaxRows (y : FVec Ideal S128x4096 .f32) : FVec Ideal S128x4096 .f32 :=
  divf (exp (subf y (rowMaxVec y)))
    (broadcastTo S128x4096
      (shapeCast S128x1
        (multiReduction .add [1] S128 (exp (subf y (rowMaxVec y))) 0x00000000#32 reduces_S128x4096_S128 (.inl rfl) rfl)
        shapeCasts_S128_S128x1)
      broadcasts_S128x1_S128x4096)

theorem softmaxRows_apply (y : FVec Ideal S128x4096 .f32) (s : Fin 4096 → EReal) (r : Fin 128)
    (hs : ∀ m, y (ix2 r m) = s m) (m : Fin 4096) :
    softmaxRows y (ix2 r m)
      = Ideal.div (Ideal.exp (s m - Finset.univ.sup s)) (∑ m' : Fin 4096, Ideal.exp (s m' - Finset.univ.sup s)) := by
  have hE : ∀ q : Fin 4096, exp (subf y (rowMaxVec y)) (ix2 r q) = Ideal.exp (s q - Finset.univ.sup s) := fun q => by
    show Ideal.exp (y (ix2 r q) - rowMaxVec y (ix2 r q)) = _
    rw [rowMaxVec_apply y s r hs q, hs q]
  unfold softmaxRows
  rw [divf_apply, hE m]
  refine congrArg (Ideal.div _) ?_
  refine (LibColumnOps.rowsum_bcast_apply _ _ _ _ _ _ r m).trans ?_
  exact Finset.sum_congr rfl fun q _ => hE q

/-- The stored row softmax is the printed softmax of the printed scaled product. -/
theorem pay5_eq (v29 : FVec Ideal S128x128 .f32) (v30 : FVec Ideal S4096x128 .f32) :
    k0_pay5 (F := Ideal) v29 v30 = softmaxRows (simVec v29 v30) := rfl

/-- The row softmax at (r, m): the exponential of the entry less the row's supremum, over the row's sum of them. -/
theorem pay5_apply (v29 : FVec Ideal S128x128 .f32) (v30 : FVec Ideal S4096x128 .f32) (r : Fin 128) (m : Fin 4096) :
    k0_pay5 (F := Ideal) v29 v30 (ix2 r m)
      = Ideal.div (Ideal.exp (sim v29 v30 r m - Finset.univ.sup (sim v29 v30 r)))
          (∑ m' : Fin 4096, Ideal.exp (sim v29 v30 r m' - Finset.univ.sup (sim v29 v30 r))) := by
  rw [pay5_eq]
  exact softmaxRows_apply (simVec v29 v30) (sim v29 v30 r) r (simVec_apply v29 v30 r) m

/-! ## What is stored from the row softmax -/

section Softmax
variable (v29 : FVec Ideal S128x128 .f32) (v30 : FVec Ideal S4096x128 .f32)

/-- The exponential of the row softmax, entrywise. -/
theorem pay6_apply (r : Fin 128) (m : Fin 4096) :
    k0_pay6 (F := Ideal) v29 v30 (ix2 r m) = Ideal.exp (k0_pay5 (F := Ideal) v29 v30 (ix2 r m)) := by
  unfold k0_pay6
  rfl

/-- Its 16-bit copy: the same entries. -/
theorem pay8_apply (r : Fin 128) (m : Fin 4096) :
    k0_pay8 (F := Ideal) v29 v30 (ix2 r m) = k0_pay6 (F := Ideal) v29 v30 (ix2 r m) := by
  unfold k0_pay8
  rw [shapeCast_self]
  rfl

/-- The running column sums: the row read so far plus the sum, down the block's 128 rows, of the exponentials. -/
theorem pay7_apply (v44 : FVec Ideal S1x4096 .f32) (m : Fin 4096) :
    k0_pay7 (F := Ideal) v29 v30 v44 (ix2 (0 : Fin 1) m)
      = v44 (ix2 (0 : Fin 1) m) + ∑ r : Fin 128, k0_pay6 (F := Ideal) v29 v30 (ix2 r m) := by
  unfold k0_pay7
  rw [shapeCast_self, addf_apply]
  refine congrArg (v44 (ix2 (0 : Fin 1) m) + ·) ?_
  refine (LibRowOps.shapeCast_row_apply _ _ 0 m).trans ?_
  exact LibKeepdims.sum_axis0_apply _ _ _ _ _ m

/-- The row softmax times the 16-bit copy of the input: the sum over the 4096 columns of the products. -/
theorem pay9_apply (v57 : FVec Ideal S4096x128 .bf16) (r d : Fin 128) :
    k0_pay9 (F := Ideal) v29 v30 v57 (ix2 r d)
      = ∑ m : Fin 4096, k0_pay5 (F := Ideal) v29 v30 (ix2 r m) * v57 (ix2 m d) := by
  unfold k0_pay9
  rw [shapeCast_self]
  exact LibMatmulIdx.matmul2_apply dot_S128x4096_S4096x128_S128x128_1_0_0_1_n_n rfl rfl
    (fun _ _ => rfl) (fun _ _ => rfl) (fun _ _ => rfl) (fun _ _ => rfl) none _ v57 (ix2 r d)

end Softmax

/-! ## The normalised residual -/

/-- The residual at (r, d): the input's entry less a tenth of the accumulated product plus the second product, whose
    left factor is the stored exponentials scaled column by column by the reciprocal column sums. -/
def resid (v24 : FVec Ideal S1x4096 .f32) (v29 : FVec Ideal S128x4096 .bf16) (v34 : FVec Ideal S4096x128 .bf16)
    (v37 : FVec Ideal S128x128 .f32) (v40 : FVec Ideal S1x128x128 .f32) (r d : Fin 128) : EReal :=
  v40 (ix3 (0 : Fin 1) r d)
    - Cert.Spec.tenth * (v37 (ix2 r d) + ∑ m : Fin 4096, (v29 (ix2 r m) * v24 (ix2 (0 : Fin 1) m)) * v34 (ix2 m d))

/-- A row's mean and variance over its 128 entries. -/
def rowMean (s : Fin 128 → EReal) : EReal := Ideal.div (∑ d : Fin 128, s d) Cert.Spec.c128
def rowVar (s : Fin 128 → EReal) : EReal :=
  Ideal.div (∑ d : Fin 128, (s d - rowMean s) * (s d - rowMean s)) Cert.Spec.c128

/-- The printed residual. -/
def resVec (v24 : FVec Ideal S1x4096 .f32) (v29 : FVec Ideal S128x4096 .bf16) (v34 : FVec Ideal S4096x128 .bf16)
    (v37 : FVec Ideal S128x128 .f32) (v40 : FVec Ideal S1x128x128 .f32) : FVec Ideal S128x128 .f32 :=
  subf (shapeCast S128x128 v40 shapeCasts_S1x128x128_S128x128)
    (mulf (broadcast S128x128 (Scalar.ofBits .f32 0x3DCCCCCD#32))
      (addf v37
        (matmul dot_S128x4096_S4096x128_S128x128_1_0_0_1_n_n none
          (truncf .bf16 (mulf (extf .f32 v29 bitsLt_bf16_f32) (broadcastTo S128x4096 v24 broadcasts_S1x4096_S128x4096)) bitsLt_bf16_f32)
          v34 (constant S128x128 .f32 0x00000000#32))))

theorem resVec_apply (v24 : FVec Ideal S1x4096 .f32) (v29 : FVec Ideal S128x4096 .bf16) (v34 : FVec Ideal S4096x128 .bf16)
    (v37 : FVec Ideal S128x128 .f32) (v40 : FVec Ideal S1x128x128 .f32) (r d : Fin 128) :
    resVec v24 v29 v34 v37 v40 (ix2 r d) = resid v24 v29 v34 v37 v40 r d := by
  unfold resVec resid
  rw [subf_apply, mulf_apply, addf_apply, shapeCast_1ab_ab_apply]
  refine congrArg (fun t => v40 (ix3 (0 : Fin 1) r d) - Cert.Spec.tenth * (v37 (ix2 r d) + t)) ?_
  refine (LibMatmulIdx.matmul2_apply dot_S128x4096_S4096x128_S128x128_1_0_0_1_n_n rfl rfl
    (fun _ _ => rfl) (fun _ _ => rfl) (fun _ _ => rfl) (fun _ _ => rfl) none _ v34 (ix2 r d)).trans ?_
  refine Finset.sum_congr rfl fun m _ => ?_
  refine congrArg (· * v34 (ix2 m d)) ?_
  show v29 (ix2 r m) * broadcastTo S128x4096 v24 broadcasts_S1x4096_S128x4096 (ix2 r m) = _
  rw [broadcastTo_1b_ab_apply]

/-- A 128 × 128 matrix's row means, kept as a column and repeated along the rows. -/
def meanVec (y : FVec Ideal S128x128 .f32) : FVec Ideal S128x128 .f32 :=
  broadcastTo S128x128
    (divf (shapeCast S128x1 (multiReduction .add [1] S128 y 0x00000000#32 reduces_S128x128_S128 (.inl rfl) rfl) shapeCasts_S128_S128x1)
      (broadcast S128x1 (Scalar.ofBits .f32 0x43000000#32)))
    broadcasts_S128x1_S128x128

theorem meanVec_apply (y : FVec Ideal S128x128 .f32) (s : Fin 128 → EReal) (r : Fin 128)
    (hs : ∀ d, y (ix2 r d) = s d) (d : Fin 128) : meanVec y (ix2 r d) = rowMean s := by
  unfold meanVec rowMean
  refine (LibColumnOps.broadcastTo_col_apply _ _ r d).trans ?_
  rw [divf_apply]
  refine congrArg (fun t => Ideal.div t Cert.Spec.c128) ?_
  refine (LibKeepdims.shapeCast_col_apply _ _ r 0).trans ?_
  refine (LibKeepdims.sum_axis1_apply y _ _ _ _ r).trans ?_
  exact Finset.sum_congr rfl fun k _ => hs k

/-- The normalisation along the rows as it is printed: the entries less their row's mean, times the reciprocal root of
    the row's variance plus the offset (a column repeated along the row), times the weights' one row repeated. -/
def normRows (y : FVec Ideal S128x128 .f32) (w : FVec Ideal S1x128 .f32) : FVec Ideal S128x128 .f32 :=
  mulf
    (mulf (subf y (meanVec y))
      (broadcastTo S128x128
        (rsqrt
          (addf
            (divf
              (shapeCast S128x1
                (multiReduction .add [1] S128 (mulf (subf y (meanVec y)) (subf y (meanVec y))) 0x00000000#32
                  reduces_S128x128_S128 (.inl rfl) rfl)
                shapeCasts_S128_S128x1)
              (broadcast S128x1 (Scalar.ofBits .f32 0x43000000#32)))
            (broadcast S128x1 (Scalar.ofBits .f32 0x358637BD#32))))
        broadcasts_S128x1_S128x128))
    (broadcastTo S128x128 (shapeCast S1x128 w shapeCasts_S1x128_S1x128) broadcasts_S1x128_S128x128)

theorem normRows_apply (y : FVec Ideal S128x128 .f32) (w : FVec Ideal S1x128 .f32) (s : Fin 128 → EReal) (r : Fin 128)
    (hs : ∀ d, y (ix2 r d) = s d) (d : Fin 128) :
    normRows y w (ix2 r d)
      = (s d - rowMean s) * Ideal.rsqrt (rowVar s + Cert.Spec.eps6) * w (ix2 (0 : Fin 1) d) := by
  have hc : ∀ q : Fin 128, subf y (meanVec y) (ix2 r q) = s q - rowMean s := fun q => by
    rw [subf_apply, meanVec_apply y s r hs q, hs q]
  unfold normRows
  rw [mulf_apply, mulf_apply, hc d, shapeCast_self, broadcastTo_1b_ab_apply]
  refine congrArg (fun t => (s d - rowMean s) * t * w (ix2 (0 : Fin 1) d)) ?_
  refine (LibColumnOps.broadcastTo_col_apply _ _ r d).trans ?_
  show Ideal.rsqrt (Ideal.div (shapeCast S128x1 _ _ (ix2 r (0 : Fin 1))) Cert.Spec.c128 + Cert.Spec.eps6) = _
  refine congrArg (fun t => Ideal.rsqrt (Ideal.div t Cert.Spec.c128 + Cert.Spec.eps6)) ?_
  refine (LibKeepdims.shapeCast_col_apply _ _ r 0).trans ?_
  refine (LibKeepdims.sum_axis1_apply _ _ _ _ _ r).trans ?_
  exact Finset.sum_congr rfl fun q _ => by rw [mulf_apply, hc q]

/-- The value the second loop's trip normalises and scales is the printed normalisation of the printed residual. -/
theorem pay12_eq (v24 : FVec Ideal S1x4096 .f32) (v29 : FVec Ideal S128x4096 .bf16) (v34 : FVec Ideal S4096x128 .bf16)
    (v37 : FVec Ideal S128x128 .f32) (v40 : FVec Ideal S1x128x128 .f32) (v63 : FVec Ideal S1x128 .f32) :
    k0_pay12 (F := Ideal) v24 v29 v34 v37 v40 v63 = normRows (resVec v24 v29 v34 v37 v40) v63 := rfl

/-- At (r, d): the residual less its row's mean, times the reciprocal root of the row's variance plus the offset, times
    the weight of column d. -/
theorem pay12_apply (v24 : FVec Ideal S1x4096 .f32) (v29 : FVec Ideal S128x4096 .bf16) (v34 : FVec Ideal S4096x128 .bf16)
    (v37 : FVec Ideal S128x128 .f32) (v40 : FVec Ideal S1x128x128 .f32) (v63 : FVec Ideal S1x128 .f32) (r d : Fin 128) :
    k0_pay12 (F := Ideal) v24 v29 v34 v37 v40 v63 (ix2 r d)
      = (resid v24 v29 v34 v37 v40 r d - rowMean (resid v24 v29 v34 v37 v40 r))
          * Ideal.rsqrt (rowVar (resid v24 v29 v34 v37 v40 r) + Cert.Spec.eps6) * v63 (ix2 (0 : Fin 1) d) := by
  rw [pay12_eq]
  exact normRows_apply (resVec v24 v29 v34 v37 v40) v63 (resid v24 v29 v34 v37 v40 r) r
    (resVec_apply v24 v29 v34 v37 v40 r) d

end Cert.KernelBody

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.BlockSums.lean ====
/-
  A running sum taken block by block.

  A sum over 4096 consecutive rows can be accumulated in 32 steps, step `k` adding the 128 rows
  `128 * k, …, 128 * k + 127`: after the last step the accumulator holds its initial value plus the sum over
  all rows.  This holds in any commutative additive monoid, where a finite sum depends neither on the order nor
  on the grouping of its terms.
-/
import Mathlib
import proofs.«114507_j55405078118436_2_alg».proof.Proof.LibTileSums

namespace Cert.Spec

variable {M : Type*} [AddCommMonoid M]

/-- If `s 0 = z` and each of the 32 steps adds one block of 128 consecutive terms of `g`, then `s 32` is `z` plus
    the sum of all 4096 terms: by induction the accumulator after `k` steps is `z` plus the first `k` blocks, and
    the 32 blocks together are the whole sum. -/
theorem blockSum_rec (g : Fin 4096 → M) (z : M) (s : ℕ → M) (h0 : s 0 = z)
    (hs : ∀ k (hk : k < 32), s (k + 1) = s k + ∑ r : Fin 128, g ⟨128 * k + r.val, by omega⟩) :
    s 32 = z + ∑ n : Fin 4096, g n := by
  classical
  -- `g` as a function of the natural number itself (anything at all from 4096 on)
  let G : ℕ → M := fun i => if h : i < 4096 then g ⟨i, h⟩ else 0
  have hG : ∀ (i : ℕ) (h : i < 4096), G i = g ⟨i, h⟩ := fun i h => dif_pos h
  have key : ∀ k, k ≤ 32 → s k = z + ∑ j ∈ Finset.range k, ∑ r : Fin 128, G (128 * j + r.val) := by
    intro k
    induction k with
    | zero => intro _; rw [h0, Finset.range_zero, Finset.sum_empty, add_zero]
    | succ k ih =>
      intro hk
      have hk' : k < 32 := hk
      rw [hs k hk', ih hk'.le, Finset.sum_range_succ, add_assoc]
      refine congrArg (fun t => z + (∑ j ∈ Finset.range k, ∑ r : Fin 128, G (128 * j + r.val) + t)) ?_
      exact Finset.sum_congr rfl fun r _ => (hG _ _).symm
  rw [key 32 le_rfl, ← LibTileSums.sum_tiles 32 128 4096 (by norm_num) G]
  exact congrArg (fun t => z + t) (Finset.sum_congr rfl fun n _ => hG n.val n.isLt)

end Cert.Spec
-- ==== Proof.KValue.lean ====
/-
  The kernel body's output block is the specification's function of the input blocks, at exact arithmetic.

  The output block is assembled from 32 tiles of 128 rows. Row `n` lies in tile `n / 128` at row `n % 128`; read at
  row `128 k + r` of tile `k`, every stage of the body is the corresponding stage of the specification at row
  `128 k + r` of the batch's matrix:
    the rows scaled to unit length           are the unit rows;
    the block's rows of the row softmax      are rows of the softmax of the scaled Gram matrix of the unit rows;
    the running row of column sums           after all 32 blocks is, column by column, the sum over all 4096 rows of the
                                             exponentials (a sum taken block by block is the whole sum);
    the residual, its mean and its variance  are the specification's, the second product's left factor being the
                                             exponential times the reciprocal of its column's sum.
  Each step reads a stored value at an index and rewrites the entries it is made of; nothing is rearranged.
-/
import proofs.«114507_j55405078118436_2_alg».proof.Proof.KBody
import proofs.«114507_j55405078118436_2_alg».proof.Proof.Payloads
import proofs.«114507_j55405078118436_2_alg».proof.Proof.Spec
import proofs.«114507_j55405078118436_2_alg».proof.Proof.BlockSums

noncomputable section

namespace Cert.KernelValue

open Cert.KernelIdeal Cert.KernelIdeal.Gen Cert.KernelIdeal.GenP Cert.KernelBody
open Idealize.ShloMosaic Idealize.ShloMosaic.ValueIdx

/-! ## Loads through the body's rectangles, read at an index -/

section Loads
variable {e : EltTy}

/-- A load of a whole buffer reads the buffer. -/
theorem ld_allX (X : S1x4096x128.Idx → Elt Ideal e) : View.ld X rAllX = X :=
  View.ld_unit_zero (funext fun a => match a with | ⟨0, _⟩ => rfl | ⟨1, _⟩ => rfl | ⟨2, _⟩ => rfl) _ X
theorem ld_allM (X : S4096x128.Idx → Elt Ideal e) : View.ld X rAllM = X :=
  View.ld_unit_zero (funext fun a => match a with | ⟨0, _⟩ => rfl | ⟨1, _⟩ => rfl) _ X
theorem ld_allC (X : S1x4096.Idx → Elt Ideal e) : View.ld X rAllC = X :=
  View.ld_unit_zero (funext fun a => match a with | ⟨0, _⟩ => rfl | ⟨1, _⟩ => rfl) _ X
theorem ld_allW (X : S1x128.Idx → Elt Ideal e) : View.ld X rAllW = X :=
  View.ld_unit_zero (funext fun a => match a with | ⟨0, _⟩ => rfl | ⟨1, _⟩ => rfl) _ X

/-- Row `128 k + r` is a row of the matrix. -/
theorem row_lt1 (k : Fin k0_t1_loop.trips) (r : Fin 128) : 128 * k.val + r.val < 4096 := by
  have hk := k.isLt; have e1 := trips1_eq; have hr := r.isLt; omega
theorem row_lt2 (k : Fin k0_t2_loop.trips) (r : Fin 128) : 128 * k.val + r.val < 4096 := by
  have hk := k.isLt; have e2 := trips2_eq; have hr := r.isLt; omega

/-- Block `k`'s 128 rows of a 4096 × 128 buffer: row `r` of the load is row `128 k + r` of the buffer. -/
theorem ld_rows (X : S4096x128.Idx → Elt Ideal e) (k : Fin k0_t1_loop.trips) (r d : Fin 128) :
    View.ld X (rRows k) (ix2 r d) = X (ix2 (⟨128 * k.val + r.val, row_lt1 k r⟩ : Fin 4096) d) := by
  show X ((rRows k).idx (ix2 r d)) = _
  refine congrArg X (funext fun a => Fin.ext ?_)
  match a with
  | ⟨0, _⟩ =>
    show k0_off1 k 0 + 1 * r.val = 128 * k.val + r.val
    rw [k0_off1_eq, Nat.one_mul]; rfl
  | ⟨1, _⟩ =>
    show k0_off1 k 1 + 1 * d.val = d.val
    rw [k0_off1_eq, Nat.one_mul]; exact Nat.zero_add _

/-- Block `j`'s 128 rows of the input block. -/
theorem ld_blk (X : S1x4096x128.Idx → Elt Ideal e) (j : Fin k0_t2_loop.trips) (r d : Fin 128) :
    View.ld X (rBlk j) (ix3 (0 : Fin 1) r d) = X (ix3 (0 : Fin 1) (⟨128 * j.val + r.val, row_lt2 j r⟩ : Fin 4096) d) := by
  show X ((rBlk j).idx (ix3 (0 : Fin 1) r d)) = _
  refine congrArg X (funext fun a => Fin.ext ?_)
  match a with
  | ⟨0, _⟩ =>
    show k0_off5 j 0 + 1 * 0 = 0
    rw [k0_off5_eq]; rfl
  | ⟨1, _⟩ =>
    show k0_off5 j 1 + 1 * r.val = 128 * j.val + r.val
    rw [k0_off5_eq, Nat.one_mul]; rfl
  | ⟨2, _⟩ =>
    show k0_off5 j 2 + 1 * d.val = d.val
    rw [k0_off5_eq, Nat.one_mul]; exact Nat.zero_add _

end Loads

/-- One more trip of the first loop: the running row after `k + 1` trips is the trip's stored row. -/
theorem colsumAfter_succ (XN : Vec Ideal S4096x128 .f32) (c0 : Vec Ideal S1x4096 .f32) (k : ℕ) (h : k < k0_t1_loop.trips) :
    colsumAfter (F := Ideal) XN c0 (k + 1)
      = k0_pay7 (F := Ideal) (View.ld XN (rRows ⟨k, h⟩)) (View.ld XN rAllM) (View.ld (colsumAfter (F := Ideal) XN c0 k) rAllC) := by
  rw [colsumAfter, dif_pos h]

/-! ## The stages of the body at a row of the batch's matrix -/

section Stages
variable (x : Cert.Spec.Arr) (b : Fin 4) (x0 : Vec Ideal S1x4096x128 .f32)
  (h0 : ∀ (n : Fin 4096) (d : Fin 128), x0 (ix3 (0 : Fin 1) n d) = x b n d)
include h0

/-- The rows scaled to unit length are the specification's unit rows. -/
theorem unitRows_apply (n : Fin 4096) (d : Fin 128) :
    unitRows (F := Ideal) x0 (ix2 n d) = Cert.Spec.xn x b n d := by
  unfold unitRows
  rw [ld_allX, pay2_apply]
  unfold Cert.Spec.xn Cert.Spec.nrm
  rw [h0 n d]
  refine congrArg (fun t => Ideal.div (x b n d) (max (Ideal.sqrt t) Cert.Spec.eps12)) ?_
  exact Finset.sum_congr rfl fun d' _ => by rw [h0 n d']

/-- The 16-bit copy of the input block is the batch's matrix. -/
theorem copyRows_apply (n : Fin 4096) (d : Fin 128) :
    copyRows (F := Ideal) x0 (ix2 n d) = x b n d := by
  unfold copyRows
  rw [ld_allX, pay3_apply, h0 n d]

/-- Block `k`'s rows of the row softmax: row `r` of the tile is row `128 k + r` of the softmax of the scaled Gram
    matrix of the unit rows. -/
theorem tileP_apply (k : Fin k0_t1_loop.trips) (r : Fin 128) (m : Fin 4096) :
    k0_pay5 (F := Ideal) (View.ld (unitRows (F := Ideal) x0) (rRows k)) (View.ld (unitRows (F := Ideal) x0) rAllM) (ix2 r m)
      = Cert.Spec.rowSoftmax (Cert.Spec.simK x) b (⟨128 * k.val + r.val, row_lt1 k r⟩ : Fin 4096) m := by
  rw [ld_allM]
  refine (pay5_apply _ _ r m).trans ?_
  have hsim : sim (View.ld (unitRows (F := Ideal) x0) (rRows k)) (unitRows (F := Ideal) x0) r
      = Cert.Spec.simK x b (⟨128 * k.val + r.val, row_lt1 k r⟩ : Fin 4096) := funext fun m' => by
    unfold sim Cert.Spec.simK Cert.Spec.gram
    refine congrArg (· * Cert.Spec.two) (Finset.sum_congr rfl fun d _ => ?_)
    rw [ld_rows, unitRows_apply x b x0 h0, unitRows_apply x b x0 h0]
  rw [hsim]
  rfl

/-- The column sums after all 32 blocks: column `m` holds the sum over all 4096 rows of the exponentials of the row
    softmax. Each trip adds its block's 128 terms to the row found, from the zero row; taken block by block the sum is
    the whole sum. -/
theorem colsumAll_apply (m : Fin 4096) :
    colsumAll (F := Ideal) x0 (ix2 (0 : Fin 1) m)
      = ∑ n : Fin 4096, Ideal.exp (Cert.Spec.rowSoftmax (Cert.Spec.simK x) b n m) := by
  have key := Cert.Spec.blockSum_rec (M := EReal)
    (fun n : Fin 4096 => Ideal.exp (Cert.Spec.rowSoftmax (Cert.Spec.simK x) b n m)) 0
    (fun k => colsumAfter (F := Ideal) (unitRows (F := Ideal) x0) (k0_pay4 (F := Ideal)) k (ix2 (0 : Fin 1) m))
    (pay4_apply m)
    (fun k hk => by
      have hk' : k < k0_t1_loop.trips := by rw [trips1_eq]; exact hk
      show colsumAfter (F := Ideal) _ _ (k + 1) (ix2 (0 : Fin 1) m) = _
      rw [colsumAfter_succ _ _ k hk', pay7_apply, ld_allC]
      refine congrArg (_ + ·) (Finset.sum_congr rfl fun r _ => ?_)
      rw [pay6_apply]
      exact congrArg Ideal.exp (tileP_apply x b x0 h0 ⟨k, hk'⟩ r m))
  rw [zero_add] at key
  unfold colsumAll
  rw [trips1_eq]
  exact key

/-- The residual of tile `j` at its row `r` is the specification's residual at row `128 j + r`: the block of the input is the
    batch's rows, the accumulated product is the row softmax times the matrix, and in the second product the stored
    exponentials times the reciprocal column sums are the column factor. -/
theorem resid_tile (j : Fin k0_t2_loop.trips) (r : Fin 128) :
    resid (k0_pay10 (F := Ideal) (View.ld (colsumAll (F := Ideal) x0) rAllC))
        (k0_pay8 (F := Ideal) (View.ld (unitRows (F := Ideal) x0) (rRows (sameTrip j))) (View.ld (unitRows (F := Ideal) x0) rAllM))
        (View.ld (copyRows (F := Ideal) x0) rAllM)
        (k0_pay9 (F := Ideal) (View.ld (unitRows (F := Ideal) x0) (rRows (sameTrip j))) (View.ld (unitRows (F := Ideal) x0) rAllM)
          (View.ld (copyRows (F := Ideal) x0) rAllM))
        (View.ld x0 (rBlk j)) r
      = Cert.Spec.resid x
          (Cert.Spec.xnegK (Cert.Spec.rowSoftmax (Cert.Spec.simK x)) (Cert.Spec.colK (Cert.Spec.rowSoftmax (Cert.Spec.simK x))) x)
          b (⟨128 * j.val + r.val, row_lt2 j r⟩ : Fin 4096) := funext fun d => by
  unfold resid Cert.Spec.resid Cert.Spec.xnegK Cert.Spec.colK
  rw [ld_blk, h0, pay9_apply]
  refine congrArg₂ (fun s t => x b (⟨128 * j.val + r.val, row_lt2 j r⟩ : Fin 4096) d - Cert.Spec.tenth * (s + t)) ?_ ?_
  · refine Finset.sum_congr rfl fun m _ => ?_
    rw [tileP_apply x b x0 h0 (sameTrip j) r m, ld_allM, copyRows_apply x b x0 h0]
    rfl
  · refine Finset.sum_congr rfl fun m _ => ?_
    rw [pay8_apply, pay6_apply, tileP_apply x b x0 h0 (sameTrip j) r m, pay10_apply, ld_allC,
      colsumAll_apply x b x0 h0 m, ld_allM, copyRows_apply x b x0 h0]
    rfl

end Stages

/-! ## The tiles and the whole block -/

section Out
variable (x : Cert.Spec.Arr) (w β : Cert.Spec.Feat) (b : Fin 4)
  (x0 : Vec Ideal S1x4096x128 .f32) (x1 x2 : Vec Ideal S1x128 .f32)
  (h0 : ∀ (n : Fin 4096) (d : Fin 128), x0 (ix3 (0 : Fin 1) n d) = x b n d)
  (h1 : ∀ d : Fin 128, x1 (ix2 (0 : Fin 1) d) = w d) (h2 : ∀ d : Fin 128, x2 (ix2 (0 : Fin 1) d) = β d)
include h0 h1 h2

/-- Tile `j` of the result at its row `r`: the specification's result at row `128 j + r`. The residual's row mean and
    variance are the specification's by their definitions, and the weights and the shift are the two feature vectors. -/
theorem outTile_apply (j : Fin k0_t2_loop.trips) (r d : Fin 128) :
    outTile (F := Ideal) x0 x1 x2 j (ix3 (0 : Fin 1) r d)
      = Cert.Spec.outK x w β b (⟨128 * j.val + r.val, row_lt2 j r⟩ : Fin 4096) d := by
  unfold outTile
  rw [pay11_apply, pay12_apply, resid_tile x b x0 h0 j r, ld_allW, ld_allW, h1 d, h2 d]
  rfl

/-- The output block at row `n`: row `n % 128` of tile `n / 128`, and `128 (n / 128) + n % 128 = n`. -/
theorem outBlock_apply (n : Fin 4096) (d : Fin 128) :
    outBlock (F := Ideal) x0 x1 x2 (ix3 (0 : Fin 1) n d) = Cert.Spec.outK x w β b n d := by
  have hlt : n.val / 128 < k0_t2_loop.trips := by
    have hn := n.isLt; have e2 := trips2_eq; omega
  have hmod : n.val % 128 < 128 := Nat.mod_lt _ (by decide)
  refine (outTile_apply x w β b x0 x1 x2 h0 h1 h2 ⟨n.val / 128, hlt⟩ ⟨n.val % 128, hmod⟩ ⟨d.val, d.isLt⟩).trans ?_
  exact congrArg (fun t => Cert.Spec.outK x w β b t d) (Fin.ext (Nat.div_add_mod n.val 128))

end Out

end Cert.KernelValue

end
-- ==== Proof.RefSide.lean ====
/-
  The reference program computes the specification's `outR`.

  The reference is a chain of whole-array operations. Read at an index, a pointwise operation is the same scalar
  operation on its operands at that index; a broadcast reads its operand at the index with the new axes dropped
  (a unit axis read at 0); a sum over one axis from the zero word is the finite sum over that axis's coordinates;
  a maximum over one axis from −∞ is the supremum over that axis's coordinates; a batched matrix product is the
  sum over the contracted coordinate. Following the chain stage by stage gives, in order: the floored row length,
  the unit rows, their Gram matrix, its quotient by the temperature, the row softmax P, the column softmax C of
  P, (P + C) · X, the residual y, its mean and its variance, and the normalised, scaled and shifted result —
  each one the specification's function of the same name at the same coordinates.
-/
import proofs.«114507_j55405078118436_2_alg».proof.Proof.RefReadP
import proofs.«114507_j55405078118436_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- Two indices are equal when their coordinates are (three, two, one axes). -/
local macro "coords3" : tactic =>
  `(tactic| exact funext fun a => Fin.ext (by match a with | ⟨0, _⟩ => rfl | ⟨1, _⟩ => rfl | ⟨2, _⟩ => rfl))
local macro "coords2" : tactic =>
  `(tactic| exact funext fun a => Fin.ext (by match a with | ⟨0, _⟩ => rfl | ⟨1, _⟩ => rfl))
local macro "coords1" : tactic =>
  `(tactic| exact funext fun a => Fin.ext (by match a with | ⟨0, _⟩ => rfl))

/-! ## The arguments as plain index functions -/

/-- The input batch of matrices, and a feature vector, by coordinates. -/
abbrev arr (x : FVec Ideal S4x4096x128 .f32) : Spec.Arr := fun b n d => x (ix3 b n d)
abbrev feat (w : FVec Ideal S128 .f32) : Spec.Feat := fun d => w (ix1 d)

/-- The row softmax P of the scaled Gram matrix, and the residual y = X − (1/10)·(P + C)·X. -/
abbrev rowP (x : FVec Ideal S4x4096x128 .f32) : Spec.Sq := Spec.rowSoftmax (Spec.simR (arr x))
abbrev resY (x : FVec Ideal S4x4096x128 .f32) : Spec.Arr :=
  Spec.resid (arr x) (Spec.xnegR (rowP x) (Spec.colR (rowP x)) (arr x))

/-! ## Sums from the zero word, maxima from −∞ -/

/-- A sum that starts from the zero word is the sum. -/
theorem zero_word_add (s : EReal) : Ideal.ofBits .f32 0x00000000#32 + s = s := by
  rw [Ideal.ofBits_zero_f32, zero_add]

/-- The word of −∞ is the least element. -/
theorem ninf_word : Ideal.ofBits .f32 0xFF800000#32 = (⊥ : EReal) := by simp [Ideal.ofBits, Ideal.ieee]

/-- So the maximum with it changes nothing. -/
theorem max_ninf_word (s : EReal) : max (Ideal.ofBits .f32 0xFF800000#32) s = s := by
  rw [ninf_word]; exact max_eq_right bot_le

/-- The maximum folded from −∞ over a finite type is the supremum. -/
theorem fold_max_eq_sup {ι : Type} [Fintype ι] (f : ι → EReal) :
    Finset.fold (FloatOps.maximumf (F := Ideal) (φ := .f32)) (Ideal.ofBits .f32 0xFF800000#32) f Finset.univ
      = Finset.univ.sup f := by
  rw [ninf_word]; rfl

/-- A maximum over the last axis from −∞, at (b, n): the supremum over the last coordinate. -/
theorem reduceMax_last (y : FVec Ideal S4x4096x4096 .f32) (b : Fin 4) (n : Fin 4096) :
    Host.reduce FloatOps.maximumf y (constant (F := Ideal) S_ .f32 0xFF800000#32)
        reducesTo_S4x4096x4096_S4x4096_d2 h_S_ (ix2 b n)
      = Finset.univ.sup fun m : Fin 4096 => y (ix3 b n m) := by
  have h : S4x4096x4096.Reduces [2] S4x4096 := by decide
  rw [Host.reduce_eq_fold_single FloatOps.maximumf y _ reducesTo_S4x4096x4096_S4x4096_d2 h h_S_]
  refine Eq.trans ?_ (fold_max_eq_sup fun m : Fin 4096 => y (ix3 b n m))
  have hf : (y ∘ h.lift (ix2 b n)) = fun m : Fin 4096 => y (ix3 b n m) :=
    funext fun k => congrArg y (by coords3)
  exact congrArg (fun f => Finset.fold (FloatOps.maximumf (F := Ideal) (φ := .f32))
    (Ideal.ofBits .f32 0xFF800000#32) f (Finset.univ : Finset (Fin 4096))) hf

/-- A maximum over the middle axis from −∞, at (b, m): the supremum over the middle coordinate. -/
theorem reduceMax_mid (y : FVec Ideal S4x4096x4096 .f32) (b : Fin 4) (m : Fin 4096) :
    Host.reduce FloatOps.maximumf y (constant (F := Ideal) S_ .f32 0xFF800000#32)
        reducesTo_S4x4096x4096_S4x4096_d1 h_S_ (ix2 b m)
      = Finset.univ.sup fun n : Fin 4096 => y (ix3 b n m) := by
  have h : S4x4096x4096.Reduces [1] S4x4096 := by decide
  rw [Host.reduce_eq_fold_single FloatOps.maximumf y _ reducesTo_S4x4096x4096_S4x4096_d1 h h_S_]
  refine Eq.trans ?_ (fold_max_eq_sup fun n : Fin 4096 => y (ix3 b n m))
  have hf : (y ∘ h.lift (ix2 b m)) = fun n : Fin 4096 => y (ix3 b n m) :=
    funext fun k => congrArg y (by coords3)
  exact congrArg (fun f => Finset.fold (FloatOps.maximumf (F := Ideal) (φ := .f32))
    (Ideal.ofBits .f32 0xFF800000#32) f (Finset.univ : Finset (Fin 4096))) hf

/-! ## The stages, each at explicit coordinates -/

variable (x : FVec Ideal S4x4096x128 .f32)

/-- The row length: the square root of the row's sum of squares (kept as a column). -/
theorem v0_at (b : Fin 4) (n : Fin 4096) :
    val_main_v0 (F := Ideal) x (ix3 b n (0 : Fin 1)) = Ideal.sqrt (∑ d, arr x b n d * arr x b n d) := by
  rw [val_main_v0_apply, val_main_call0_v2_apply, val_main_call0_v1_apply]
  refine congrArg Ideal.sqrt ((zero_word_add _).trans (Finset.sum_congr rfl fun d _ => ?_))
  rw [val_main_call0_v0_apply,
    show idx_main_call0_v1 (idx_main_call0_v2 (ix3 b n (0 : Fin 1))) d = ix3 b n d by coords3]
  rfl

/-- Floored at the word of 1e-12. -/
theorem v2_at (b : Fin 4) (n : Fin 4096) :
    val_main_v2 (F := Ideal) x (ix3 b n (0 : Fin 1)) = Spec.nrm (arr x) b n := by
  rw [val_main_v2_apply, v0_at, val_main_v1_apply]
  rfl

/-- The unit rows: each entry over its row's floored length. -/
theorem v4_at (b : Fin 4) (n : Fin 4096) (d : Fin 128) :
    val_main_v4 (F := Ideal) x (ix3 b n d) = Spec.xn (arr x) b n d := by
  rw [val_main_v4_apply, val_main_v3_apply,
    show idx_main_v3 (ix3 b n d) = ix3 b n (0 : Fin 1) by coords3, v2_at]
  rfl

/-- The Gram matrix of the unit rows: rows n and m contracted over the features. -/
theorem v5_at (b : Fin 4) (n m : Fin 4096) :
    val_main_v5 (F := Ideal) x (ix3 b n m) = Spec.gram (arr x) b n m := by
  rw [val_main_v5_apply]
  refine Finset.sum_congr rfl fun k _ => ?_
  rw [show lidx_main_v5 (ix3 b n m) k = ix3 b n k by coords3,
    show ridx_main_v5 (ix3 b n m) k = ix3 b m k by coords3, v4_at, v4_at]

/-- Its quotient by the temperature 1/2. -/
theorem v7_at (b : Fin 4) (n m : Fin 4096) :
    val_main_v7 (F := Ideal) x (ix3 b n m) = Spec.simR (arr x) b n m := by
  rw [val_main_v7_apply, v5_at, val_main_v6_apply]
  rfl

/-- A row's maximum: the supremum of the row. -/
theorem v8_at (b : Fin 4) (n : Fin 4096) :
    val_main_v8 (F := Ideal) x (ix2 b n) = Finset.univ.sup (Spec.simR (arr x) b n) :=
  (reduceMax_last (val_main_v7 (F := Ideal) x) b n).trans
    (congrArg (Finset.sup Finset.univ) (funext fun m => v7_at x b n m))

/-- The maximum of that with −∞ is the same supremum. -/
theorem v10_at (b : Fin 4) (n : Fin 4096) :
    val_main_v10 (F := Ideal) x (ix2 b n) = Finset.univ.sup (Spec.simR (arr x) b n) := by
  rw [val_main_v10_apply, v8_at, val_main_v9_apply]
  exact max_ninf_word _

/-- The exponential of an entry less its row's maximum. -/
theorem v14_at (b : Fin 4) (n m : Fin 4096) :
    val_main_v14 (F := Ideal) x (ix3 b n m)
      = Ideal.exp (Spec.simR (arr x) b n m - Finset.univ.sup (Spec.simR (arr x) b n)) := by
  rw [val_main_v14_apply, val_main_v13_apply, v7_at, val_main_v12_apply, val_main_v11_apply,
    show idx_main_v11 (idx_main_v12 (ix3 b n m)) = ix2 b n by coords2, v10_at]
  rfl

/-- The row's sum of those exponentials. -/
theorem v15_at (b : Fin 4) (n : Fin 4096) :
    val_main_v15 (F := Ideal) x (ix2 b n)
      = ∑ m, Ideal.exp (Spec.simR (arr x) b n m - Finset.univ.sup (Spec.simR (arr x) b n)) := by
  rw [val_main_v15_apply]
  refine (zero_word_add _).trans (Finset.sum_congr rfl fun k _ => ?_)
  rw [show idx_main_v15 (ix2 b n) k = ix3 b n k by coords3, v14_at]

/-- The row softmax P. -/
theorem v18_at (b : Fin 4) (n m : Fin 4096) :
    val_main_v18 (F := Ideal) x (ix3 b n m) = rowP x b n m := by
  rw [val_main_v18_apply, v14_at, val_main_v17_apply, val_main_v16_apply,
    show idx_main_v16 (idx_main_v17 (ix3 b n m)) = ix2 b n by coords2, v15_at]
  rfl

/-- A column's maximum of P (with the maximum against −∞ on top): the supremum of the column. -/
theorem v21_at (b : Fin 4) (m : Fin 4096) :
    val_main_v21 (F := Ideal) x (ix2 b m) = Finset.univ.sup (fun n' => rowP x b n' m) := by
  rw [val_main_v21_apply, val_main_v20_apply]
  refine (max_ninf_word _).trans ?_
  exact (reduceMax_mid (val_main_v18 (F := Ideal) x) b m).trans
    (congrArg (Finset.sup Finset.univ) (funext fun n => v18_at x b n m))

/-- The exponential of an entry of P less its column's maximum. -/
theorem v25_at (b : Fin 4) (n m : Fin 4096) :
    val_main_v25 (F := Ideal) x (ix3 b n m)
      = Ideal.exp (rowP x b n m - Finset.univ.sup (fun n'' => rowP x b n'' m)) := by
  rw [val_main_v25_apply, val_main_v24_apply, v18_at, val_main_v23_apply, val_main_v22_apply,
    show idx_main_v22 (idx_main_v23 (ix3 b n m)) = ix2 b m by coords2, v21_at]
  rfl

/-- The column's sum of those exponentials. -/
theorem v26_at (b : Fin 4) (m : Fin 4096) :
    val_main_v26 (F := Ideal) x (ix2 b m)
      = ∑ n', Ideal.exp (rowP x b n' m - Finset.univ.sup (fun n'' => rowP x b n'' m)) := by
  rw [val_main_v26_apply]
  refine (zero_word_add _).trans (Finset.sum_congr rfl fun k _ => ?_)
  rw [show idx_main_v26 (ix2 b m) k = ix3 b k m by coords3, v25_at]

/-- The column softmax C of P. -/
theorem v29_at (b : Fin 4) (n m : Fin 4096) :
    val_main_v29 (F := Ideal) x (ix3 b n m) = Spec.colR (rowP x) b n m := by
  rw [val_main_v29_apply, v25_at, val_main_v28_apply, val_main_v27_apply,
    show idx_main_v27 (idx_main_v28 (ix3 b n m)) = ix2 b m by coords2, v26_at]
  rfl

/-- (P + C) · X: row n of P + C contracted with column d of X over the rows of X. -/
theorem v31_at (b : Fin 4) (n : Fin 4096) (d : Fin 128) :
    val_main_v31 (F := Ideal) x (ix3 b n d) = Spec.xnegR (rowP x) (Spec.colR (rowP x)) (arr x) b n d := by
  rw [val_main_v31_apply]
  refine Finset.sum_congr rfl fun k _ => ?_
  rw [show lidx_main_v31 (ix3 b n d) k = ix3 b n k by coords3,
    show ridx_main_v31 (ix3 b n d) k = ix3 b k d by coords3, val_main_v30_apply, v18_at, v29_at]
  rfl

/-- The residual y = X − (1/10) · (P + C) · X. -/
theorem v34_at (b : Fin 4) (n : Fin 4096) (d : Fin 128) :
    val_main_v34 (F := Ideal) x (ix3 b n d) = resY x b n d := by
  rw [val_main_v34_apply, val_main_v33_apply, val_main_v32_apply, v31_at]
  rfl

/-- A row's mean of y. -/
theorem v38_at (b : Fin 4) (n : Fin 4096) :
    val_main_v38 (F := Ideal) x (ix3 b n (0 : Fin 1)) = Spec.mu (resY x) b n := by
  rw [val_main_v38_apply, val_main_v36_apply, val_main_v35_apply, val_main_v37_apply]
  refine congrArg (fun s => Ideal.div s Spec.c128)
    ((zero_word_add _).trans (Finset.sum_congr rfl fun k _ => ?_))
  rw [show idx_main_v35 (idx_main_v36 (ix3 b n (0 : Fin 1))) k = ix3 b n k by coords3, v34_at]

/-- y less its row's mean (the reference computes it twice: once for the variance, once for the result). -/
theorem v40_at (b : Fin 4) (n : Fin 4096) (d : Fin 128) :
    val_main_v40 (F := Ideal) x (ix3 b n d) = resY x b n d - Spec.mu (resY x) b n := by
  rw [val_main_v40_apply, v34_at, val_main_v39_apply,
    show idx_main_v39 (ix3 b n d) = ix3 b n (0 : Fin 1) by coords3, v38_at]
  rfl

theorem v47_at (b : Fin 4) (n : Fin 4096) (d : Fin 128) :
    val_main_v47 (F := Ideal) x (ix3 b n d) = resY x b n d - Spec.mu (resY x) b n := by
  rw [val_main_v47_apply, v34_at, val_main_v46_apply,
    show idx_main_v46 (ix3 b n d) = ix3 b n (0 : Fin 1) by coords3, v38_at]
  rfl

/-- A row's variance of y. -/
theorem v45_at (b : Fin 4) (n : Fin 4096) :
    val_main_v45 (F := Ideal) x (ix3 b n (0 : Fin 1)) = Spec.var (resY x) b n := by
  rw [val_main_v45_apply, val_main_v43_apply, val_main_v42_apply, val_main_v44_apply]
  refine congrArg (fun s => Ideal.div s Spec.c128)
    ((zero_word_add _).trans (Finset.sum_congr rfl fun k _ => ?_))
  rw [val_main_v41_apply,
    show idx_main_v42 (idx_main_v43 (ix3 b n (0 : Fin 1))) k = ix3 b n k by coords3, v40_at]
  rfl

/-- The square root of the variance plus the word of 1e-6. -/
theorem v50_at (b : Fin 4) (n : Fin 4096) :
    val_main_v50 (F := Ideal) x (ix3 b n (0 : Fin 1)) = Ideal.sqrt (Spec.var (resY x) b n + Spec.eps6) := by
  rw [val_main_v50_apply, val_main_v49_apply, v45_at, val_main_v48_apply]
  rfl

/-- The normalised entry: a quotient by that square root. -/
theorem v52_at (b : Fin 4) (n : Fin 4096) (d : Fin 128) :
    val_main_v52 (F := Ideal) x (ix3 b n d)
      = Ideal.div (resY x b n d - Spec.mu (resY x) b n) (Ideal.sqrt (Spec.var (resY x) b n + Spec.eps6)) := by
  rw [val_main_v52_apply, v47_at, val_main_v51_apply,
    show idx_main_v51 (ix3 b n d) = ix3 b n (0 : Fin 1) by coords3, v50_at]
  rfl

/-- A feature vector broadcast over batches and rows reads its feature's entry. -/
theorem v54_at (w : FVec Ideal S128 .f32) (b : Fin 4) (n : Fin 4096) (d : Fin 128) :
    val_main_v54 (F := Ideal) w (ix3 b n d) = w (ix1 d) := by
  rw [val_main_v54_apply, val_main_v53_apply]
  exact congrArg w (by coords1)

theorem v57_at (β : FVec Ideal S128 .f32) (b : Fin 4) (n : Fin 4096) (d : Fin 128) :
    val_main_v57 (F := Ideal) β (ix3 b n d) = β (ix1 d) := by
  rw [val_main_v57_apply, val_main_v56_apply]
  exact congrArg β (by coords1)

/-- The last stage, scaled by w and shifted by β, is the specification's result at (b, n, d). -/
theorem v58_at (w β : FVec Ideal S128 .f32) (b : Fin 4) (n : Fin 4096) (d : Fin 128) :
    val_main_v58 (F := Ideal) x w β (ix3 b n d) = Spec.outR (arr x) (feat w) (feat β) b n d := by
  rw [val_main_v58_apply, val_main_v55_apply, v52_at, v54_at, v57_at]
  rfl

/-! ## The reference's result is the specification's -/

/-- The reference's last stage, as a whole array. -/
theorem result_eq (x : FVec Ideal S4x4096x128 .f32) (w β : FVec Ideal S128 .f32) :
    val_main_v58 (F := Ideal) x w β
      = fun i => Spec.outR (fun b n d => x (ix3 b n d)) (fun d => w (ix1 d)) (fun d => β (ix1 d)) (i 0) (i 1) (i 2) := by
  funext i
  obtain ⟨b, n, d, rfl⟩ : ∃ (b : Fin 4) (n : Fin 4096) (d : Fin 128), i = ix3 b n d := ⟨i 0, i 1, i 2, eq_ix3 i⟩
  exact v58_at x w β b n d

/-- The term the reference's run leaves in its result buffer, as a function of the three argument buffers. -/
theorem res_eq (m : (ℓ : Loc nD τ sig) → Buf (Elt Ideal) ℓ) (c : Dev nD) :
    Cert.ReferenceIdeal.ValueP.res_main_v58 (F := Ideal) m c
      = fun i => Spec.outR (fun b n d => m ((c.tc : Thread nD τ).loc main_arg0) (ix3 b n d))
          (fun d => m ((c.tc : Thread nD τ).loc main_arg1) (ix1 d))
          (fun d => m ((c.tc : Thread nD τ).loc main_arg2) (ix1 d)) (i 0) (i 1) (i 2) :=
  (val_main_v58_eq m c).trans (result_eq _ _ _)

end Cert.RefSide

end
-- ==== Proof.SpecLaw.lean ====
/-
  The two spellings of the specification agree on finite inputs.

  Every stage of the computation keeps finite (real) values finite: the row lengths are floored by a
  positive constant, the exponentials are positive, so the softmax denominators are positive, and the
  variance is offset by a positive constant.  On finite values the four differences are identities of
  real arithmetic:
    * a product with 2 is a quotient by 1/2 (this one holds for every extended real);
    * `exp (p - c) / ∑ exp (p' - c) = exp p · (1 / ∑ exp p')` for any finite shift `c`;
    * `(P + C) · X = P · X + C · X`;
    * `a · (√v)⁻¹ = a / √v` for `v > 0`.
-/
import Mathlib
import Idealize.ShloMosaic.PureOps.Ideal
import proofs.«114507_j55405078118436_2_alg».proof.Proof.Spec

noncomputable section

namespace Cert.Spec

open Idealize.ShloMosaic

/-! ## The literals' values -/

theorem two_eq : two = ((2 : ℝ) : EReal) := by
  simp [two, Ideal.ofBits, Ideal.ieee, -EReal.coe_mul]; norm_num

theorem half_eq : half = ((1 / 2 : ℝ) : EReal) := by
  simp [half, Ideal.ofBits, Ideal.ieee, -EReal.coe_mul]; norm_num

theorem one_eq : one = ((1 : ℝ) : EReal) := by
  simp [one, Ideal.ofBits, Ideal.ieee, -EReal.coe_mul]; norm_num

/-! ## Finite, non-negative and positive extended reals -/

/-- An extended real that is a real. -/
def IsR (a : EReal) : Prop := ∃ r : ℝ, a = (r : EReal)
/-- An extended real that is a non-negative real. -/
def IsNN (a : EReal) : Prop := ∃ r : ℝ, 0 ≤ r ∧ a = (r : EReal)
/-- An extended real that is a positive real. -/
def IsPos (a : EReal) : Prop := ∃ r : ℝ, 0 < r ∧ a = (r : EReal)

theorem IsPos.isNN {a : EReal} : IsPos a → IsNN a
  | ⟨r, h, e⟩ => ⟨r, h.le, e⟩
theorem IsNN.isR {a : EReal} : IsNN a → IsR a
  | ⟨r, _, e⟩ => ⟨r, e⟩
theorem IsPos.isR {a : EReal} (h : IsPos a) : IsR a := h.isNN.isR

theorem eps12_pos : IsPos eps12 := by
  simp [IsPos, eps12, Ideal.ofBits, Ideal.ieee, -EReal.coe_mul]

theorem eps6_pos : IsPos eps6 := by
  simp [IsPos, eps6, Ideal.ofBits, Ideal.ieee, -EReal.coe_mul]

theorem tenth_isR : IsR tenth := by
  simp [IsR, tenth, Ideal.ofBits, Ideal.ieee, -EReal.coe_mul]

theorem c128_pos : IsPos c128 := by
  simp [IsPos, c128, Ideal.ofBits, Ideal.ieee, -EReal.coe_mul]

theorem two_isR : IsR two := ⟨2, two_eq⟩

theorem IsR.add {a b : EReal} : IsR a → IsR b → IsR (a + b)
  | ⟨r, hr⟩, ⟨s, hs⟩ => ⟨r + s, by rw [hr, hs, EReal.coe_add]⟩
theorem IsR.sub {a b : EReal} : IsR a → IsR b → IsR (a - b)
  | ⟨r, hr⟩, ⟨s, hs⟩ => ⟨r - s, by rw [hr, hs, EReal.coe_sub]⟩
theorem IsR.mul {a b : EReal} : IsR a → IsR b → IsR (a * b)
  | ⟨r, hr⟩, ⟨s, hs⟩ => ⟨r * s, by rw [hr, hs, EReal.coe_mul]⟩
theorem IsR.mul_self {a : EReal} : IsR a → IsNN (a * a)
  | ⟨r, hr⟩ => ⟨r * r, mul_self_nonneg r, by rw [hr, EReal.coe_mul]⟩
theorem IsR.exp {a : EReal} : IsR a → IsPos (Ideal.exp a)
  | ⟨r, hr⟩ => ⟨Real.exp r, Real.exp_pos r, by rw [hr, Ideal.exp_coe]⟩
theorem IsNN.add_pos {a b : EReal} : IsNN a → IsPos b → IsPos (a + b)
  | ⟨r, hr0, hr⟩, ⟨s, hs0, hs⟩ => ⟨r + s, by positivity, by rw [hr, hs, EReal.coe_add]⟩
theorem IsNN.max_pos {a b : EReal} : IsNN a → IsPos b → IsPos (max a b)
  | ⟨r, _, hr⟩, ⟨s, hs0, hs⟩ => ⟨max r s, lt_max_of_lt_right hs0, by rw [hr, hs]; exact (EReal.coe_strictMono.monotone.map_max).symm⟩
theorem IsNN.sqrt {a : EReal} : IsNN a → IsNN (Ideal.sqrt a)
  | ⟨r, hr0, hr⟩ => ⟨Real.sqrt r, Real.sqrt_nonneg r, by rw [hr, Ideal.sqrt_coe, if_neg (not_lt.mpr hr0)]⟩

/-- A quotient by a positive real is the product with its reciprocal. -/
theorem IsR.div_pos {a b : EReal} : IsR a → IsPos b → IsR (Ideal.div a b)
  | ⟨r, hr⟩, ⟨s, hs0, hs⟩ => ⟨r * (1 / s), by rw [hr, hs, Ideal.div_coe hs0.ne', EReal.coe_mul]⟩
theorem IsNN.div_pos {a b : EReal} : IsNN a → IsPos b → IsNN (Ideal.div a b)
  | ⟨r, hr0, hr⟩, ⟨s, hs0, hs⟩ =>
    ⟨r * (1 / s), by positivity, by rw [hr, hs, Ideal.div_coe hs0.ne', EReal.coe_mul]⟩
theorem IsPos.div_pos {a b : EReal} : IsPos a → IsPos b → IsPos (Ideal.div a b)
  | ⟨r, hr0, hr⟩, ⟨s, hs0, hs⟩ =>
    ⟨r * (1 / s), by positivity, by rw [hr, hs, Ideal.div_coe hs0.ne', EReal.coe_mul]⟩

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsR.sum {ι : Type*} [Fintype ι] {f : ι → EReal} (h : ∀ i, IsR (f i)) : IsR (∑ i, f i) := by
  choose g hg using h
  exact ⟨∑ i, g i, by rw [coe_sum]; exact Finset.sum_congr rfl fun i _ => hg i⟩

theorem IsNN.sum {ι : Type*} [Fintype ι] {f : ι → EReal} (h : ∀ i, IsNN (f i)) : IsNN (∑ i, f i) := by
  choose g hg0 hg using h
  exact ⟨∑ i, g i, Finset.sum_nonneg fun i _ => hg0 i,
    by rw [coe_sum]; exact Finset.sum_congr rfl fun i _ => hg i⟩

theorem IsPos.sum {ι : Type*} [Fintype ι] [Nonempty ι] {f : ι → EReal} (h : ∀ i, IsPos (f i)) :
    IsPos (∑ i, f i) := by
  choose g hg0 hg using h
  exact ⟨∑ i, g i, Finset.sum_pos (fun i _ => hg0 i) Finset.univ_nonempty,
    by rw [coe_sum]; exact Finset.sum_congr rfl fun i _ => hg i⟩

/-- The greatest of finitely many (at least one) reals is one of them. -/
theorem IsR.sup {ι : Type*} [Fintype ι] [Nonempty ι] {f : ι → EReal} (h : ∀ i, IsR (f i)) :
    IsR (Finset.univ.sup f) := by
  obtain ⟨i, _, hi⟩ := Finset.exists_mem_eq_sup Finset.univ Finset.univ_nonempty f
  rw [hi]; exact h i

/-! ## Every stage keeps finite values finite -/

section Stages
variable {x : Arr} (hx : ∀ b n d, IsR (x b n d))
include hx

theorem nrm_pos (b : Fin 4) (n : Fin 4096) : IsPos (nrm x b n) :=
  (IsNN.sum fun d => (hx b n d).mul_self).sqrt.max_pos eps12_pos

theorem xn_isR (b : Fin 4) (n : Fin 4096) (d : Fin 128) : IsR (xn x b n d) :=
  (hx b n d).div_pos (nrm_pos hx b n)

theorem gram_isR (b : Fin 4) (n m : Fin 4096) : IsR (gram x b n m) :=
  IsR.sum fun d => (xn_isR hx b n d).mul (xn_isR hx b m d)

theorem simK_isR (b : Fin 4) (n m : Fin 4096) : IsR (simK x b n m) :=
  (gram_isR hx b n m).mul two_isR

end Stages

theorem rowSoftmax_pos {S : Sq} (hS : ∀ b n m, IsR (S b n m)) (b : Fin 4) (n m : Fin 4096) :
    IsPos (rowSoftmax S b n m) :=
  ((hS b n m).sub (IsR.sup (hS b n))).exp.div_pos
    (IsPos.sum fun m' => ((hS b n m').sub (IsR.sup (hS b n))).exp)

theorem colR_pos {P : Sq} (hP : ∀ b n m, IsR (P b n m)) (b : Fin 4) (n m : Fin 4096) :
    IsPos (colR P b n m) :=
  ((hP b n m).sub (IsR.sup (f := fun n' => P b n' m) fun n' => hP b n' m)).exp.div_pos
    (IsPos.sum fun n' => ((hP b n' m).sub (IsR.sup (f := fun n'' => P b n'' m) fun n'' => hP b n'' m)).exp)

theorem xnegR_isR {P C : Sq} {x : Arr} (hP : ∀ b n m, IsR (P b n m)) (hC : ∀ b n m, IsR (C b n m))
    (hx : ∀ b n d, IsR (x b n d)) (b : Fin 4) (n : Fin 4096) (d : Fin 128) : IsR (xnegR P C x b n d) :=
  IsR.sum fun m => ((hP b n m).add (hC b n m)).mul (hx b m d)

theorem resid_isR {x z : Arr} (hx : ∀ b n d, IsR (x b n d)) (hz : ∀ b n d, IsR (z b n d))
    (b : Fin 4) (n : Fin 4096) (d : Fin 128) : IsR (resid x z b n d) :=
  (hx b n d).sub (tenth_isR.mul (hz b n d))

theorem mu_isR {y : Arr} (hy : ∀ b n d, IsR (y b n d)) (b : Fin 4) (n : Fin 4096) : IsR (mu y b n) :=
  (IsR.sum fun d => hy b n d).div_pos c128_pos

theorem var_nn {y : Arr} (hy : ∀ b n d, IsR (y b n d)) (b : Fin 4) (n : Fin 4096) : IsNN (var y b n) :=
  (IsNN.sum fun d => ((hy b n d).sub (mu_isR hy b n)).mul_self).div_pos c128_pos

/-! ## The four differences -/

/-- A product with 2 is a quotient by 1/2, for every extended real. -/
theorem simK_eq_simR (x : Arr) : simK x = simR x := by
  funext b n m
  show gram x b n m * two = Ideal.div (gram x b n m) half
  rw [two_eq, half_eq, Ideal.div_coe (by norm_num : (1 / 2 : ℝ) ≠ 0)]
  norm_num

/-- A softmax does not depend on the shift: `eᵖ · (1 / ∑ eᵖ') = eᵖ⁻ᶜ / ∑ eᵖ'⁻ᶜ`. -/
theorem real_softmax_shift {ι : Type*} [Fintype ι] [Nonempty ι] (p : ι → ℝ) (c : ℝ) (n : ι) :
    Real.exp (p n) * (1 * (1 / ∑ n', Real.exp (p n')))
      = Real.exp (p n - c) * (1 / ∑ n', Real.exp (p n' - c)) := by
  have hs : 0 < ∑ n', Real.exp (p n') := Finset.sum_pos (fun i _ => Real.exp_pos _) Finset.univ_nonempty
  have hc : 0 < Real.exp c := Real.exp_pos c
  simp only [Real.exp_sub, ← Finset.sum_div]
  field_simp

theorem colK_eq_colR {P : Sq} (hP : ∀ b n m, IsR (P b n m)) : colK P = colR P := by
  funext b n m
  have h : ∀ n', IsR (P b n' m) := fun n' => hP b n' m
  obtain ⟨c, hc⟩ := IsR.sup (f := fun n' => P b n' m) h
  choose p hp using h
  have h1 : (∑ n', Real.exp (p n')) ≠ 0 :=
    (Finset.sum_pos (fun i _ => Real.exp_pos _) Finset.univ_nonempty).ne'
  have h2 : (∑ n', Real.exp (p n' - c)) ≠ 0 :=
    (Finset.sum_pos (fun i _ => Real.exp_pos _) Finset.univ_nonempty).ne'
  show Ideal.exp (P b n m) * Ideal.div one (∑ n', Ideal.exp (P b n' m))
    = Ideal.div (Ideal.exp (P b n m - Finset.univ.sup (fun n' => P b n' m)))
        (∑ n', Ideal.exp (P b n' m - Finset.univ.sup (fun n'' => P b n'' m)))
  rw [hc]
  simp only [hp, ← EReal.coe_sub, Ideal.exp_coe, ← coe_sum, one_eq]
  rw [Ideal.div_coe h1, Ideal.div_coe h2, ← EReal.coe_mul, ← EReal.coe_mul, ← EReal.coe_mul,
    real_softmax_shift p c n]

theorem xnegK_eq_xnegR {P C : Sq} {x : Arr} (hP : ∀ b n m, IsR (P b n m)) (hC : ∀ b n m, IsR (C b n m))
    (hx : ∀ b n d, IsR (x b n d)) : xnegK P C x = xnegR P C x := by
  funext b n d
  show (∑ m, P b n m * x b m d) + (∑ m, C b n m * x b m d) = ∑ m, (P b n m + C b n m) * x b m d
  rw [← Finset.sum_add_distrib]
  refine Finset.sum_congr rfl fun m _ => ?_
  obtain ⟨p, hp⟩ := hP b n m
  obtain ⟨c, hc⟩ := hC b n m
  obtain ⟨r, hr⟩ := hx b m d
  rw [hp, hc, hr]
  exact_mod_cast (add_mul p c r).symm

/-- For `v > 0` a product with `(√v)⁻¹` is a quotient by `√v`. -/
theorem mul_rsqrt_eq_div_sqrt (a : EReal) {v : EReal} (hv : IsPos v) :
    a * Ideal.rsqrt v = Ideal.div a (Ideal.sqrt v) := by
  obtain ⟨r, hr, rfl⟩ := hv
  rw [Ideal.rsqrt_coe, Ideal.sqrt_coe, if_neg (not_lt.mpr hr.le), if_neg hr.ne', if_neg (not_lt.mpr hr.le),
    Ideal.div_coe (Real.sqrt_ne_zero'.mpr hr), one_div]

theorem normK_eq_normR {y : Arr} (hy : ∀ b n d, IsR (y b n d)) (w β : Feat) : normK y w β = normR y w β := by
  funext b n d
  show (y b n d - mu y b n) * Ideal.rsqrt (var y b n + eps6) * w d + β d
    = Ideal.div (y b n d - mu y b n) (Ideal.sqrt (var y b n + eps6)) * w d + β d
  rw [mul_rsqrt_eq_div_sqrt _ ((var_nn hy b n).add_pos eps6_pos)]

/-! ## The two spellings agree -/

theorem outK_eq_outR (x : Arr) (w β : Feat) (hx : ∀ b n d, x b n d = (((x b n d).toReal : ℝ) : EReal)) :
    outK x w β = outR x w β := by
  have hxR : ∀ b n d, IsR (x b n d) := fun b n d => ⟨_, hx b n d⟩
  have hP : ∀ b n m, IsR (rowSoftmax (simK x) b n m) := fun b n m =>
    (rowSoftmax_pos (simK_isR hxR) b n m).isR
  have hC : ∀ b n m, IsR (colR (rowSoftmax (simK x)) b n m) := fun b n m => (colR_pos hP b n m).isR
  unfold outK outR
  rw [← simK_eq_simR x, colK_eq_colR hP, xnegK_eq_xnegR hP hC hxR]
  exact normK_eq_normR (resid_isR hxR (xnegR_isR hP hC hxR)) w β

end Cert.Spec

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.FiniteInputs.lean ====
/-
  From the precondition to "every entry of the first argument is a real number".

  The precondition is the conjunction of three statements "every entry's absolute value is below +∞", one per
  argument array, each a reduction by "and" of the entrywise comparisons into a single bit; it states that the
  conjunction is the bit 1.  A conjunction of bits is 1 only if each of them is, so the first statement holds, and on
  the extended reals an entry whose absolute value is below +∞ is the image of its real part.
-/
import proofs.«114507_j55405078118436_2_alg».proof.Defs
import proofs.«114507_j55405078118436_2_alg».proof.Proof.LibFiniteEntries
import Idealize.ShloMosaic.Lib.ValueIdx

noncomputable section

namespace Cert.FiniteInputs

open Idealize.ShloMosaic Idealize.SL.Sem

/-- Under the precondition the first argument array is the image of its real parts, on every device. -/
theorem x_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (m ((c.tc : Thread Cert.KernelIdeal.nD Cert.KernelIdeal.τ).loc Cert.KernelIdeal.main_arg0))
      = fun i => ((((m ((c.tc : Thread Cert.KernelIdeal.nD Cert.KernelIdeal.τ).loc Cert.KernelIdeal.main_arg0)) i).toReal : ℝ) : EReal) := by
  have h0 := congrFun (h c) ValueIdx.ix0
  dsimp only [Cert.Pre_finite_inputs.fn, andi] at h0
  have h1 := (IntOp.andi_eq_one.1 (IntOp.andi_eq_one.1 h0).1).1
  exact LibFiniteEntries.real_of_all_abs_lt _ _ (fun _ => rfl) _ _ _ ValueIdx.ix0 h1

end Cert.FiniteInputs

end
-- ==== Proof.lean ====
/-
  The kernel and the reference compute the same function of their three arguments on the extended reals.

  For each of the 4 batches the input is a 4096 × 128 matrix X. Both programs scale its rows to unit length, take the
  Gram matrix of the unit rows at inverse temperature 2, apply a softmax along each row (giving P) and then a softmax of P
  along each column (giving C), form y = X − (1/10) · (P + C) · X, and normalise y along its 128 features with the weight and
  the bias. They differ in four spellings — a product with 2 against a quotient by 1/2; a column softmax without and with a
  shift by the column's maximum; P · X + C · X against (P + C) · X; a product with the reciprocal square root against a
  quotient by the square root — and these agree because under the precondition every entry of X is a real number, which
  keeps every intermediate value real, every softmax denominator positive and the offset variance positive
  (Proof/SpecLaw.lean, over the specification Proof/Spec.lean).

  The kernel handles one batch per grid point, entirely in scratch memory: a first loop over 32 blocks of 128 rows stores
  exp P and P · X block by block and accumulates the column sums of exp P; a second loop over the same blocks reads them
  back and stores the result's rows. What the second loop reads of what the first wrote does not depend on what the scratch
  held before, so the block a grid point writes back is one function of its input blocks (Proof/KBody.lean); read at an
  index that function is the specification's kernel spelling (Proof/Payloads.lean, Proof/KValue.lean), and the four blocks
  make up the result array (Proof/KArray.lean). The reference's chain of whole-array operations read at an index is the
  specification's reference spelling (Proof/RefSide.lean). The three frames are the runs with the values forgotten, and the
  idealization rewrote no operation.
-/
import proofs.«114507_j55405078118436_2_alg».proof.Defs
import proofs.«114507_j55405078118436_2_alg».proof.Proof.Gen.Kernel
import proofs.«114507_j55405078118436_2_alg».proof.Proof.Gen.KernelIdeal
import proofs.«114507_j55405078118436_2_alg».proof.Proof.Gen.ReferenceIdeal
import proofs.«114507_j55405078118436_2_alg».proof.Proof.Gen.Pre_finite_inputs
import proofs.«114507_j55405078118436_2_alg».proof.Proof.KFramePW
import proofs.«114507_j55405078118436_2_alg».proof.Proof.KArray
import proofs.«114507_j55405078118436_2_alg».proof.Proof.KValue
import proofs.«114507_j55405078118436_2_alg».proof.Proof.RefSide
import proofs.«114507_j55405078118436_2_alg».proof.Proof.SpecLaw
import proofs.«114507_j55405078118436_2_alg».proof.Proof.FiniteInputs
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_k : Cert.frame_Kernel := fun m ρ _ => Cert.Kernel.GenP.frame m ρ

/-- So does the kernel at exact arithmetic. -/
theorem frame_ki : Cert.frame_KernelIdeal := fun m ρ _ => Cert.KernelIdeal.GenP.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the three arguments, both programs end with the result array at the specification's
    function of the arguments: the kernel at its own spelling, which on real inputs is the reference's. -/
theorem algebraic : Cert.algebraic_KernelIdeal_ReferenceIdeal := by
  intro m ρ m' ρ' hpre hagree
  refine ⟨fun c i => Cert.Spec.outR
      (fun b n d => m ((c.tc : Thread Cert.KernelIdeal.nD Cert.KernelIdeal.τ).loc Cert.KernelIdeal.main_arg0) (ix3 b n d))
      (fun d => m ((c.tc : Thread Cert.KernelIdeal.nD Cert.KernelIdeal.τ).loc Cert.KernelIdeal.main_arg1) (ix1 d))
      (fun d => m ((c.tc : Thread Cert.KernelIdeal.nD Cert.KernelIdeal.τ).loc Cert.KernelIdeal.main_arg2) (ix1 d)) (i 0) (i 1) (i 2), ?_, ?_⟩
  · refine (θ_run Cert.KernelIdeal.defs _ _).mono (fun r h c => ⟨(h c).1.trans ?_, (h c).2⟩)
      (Cert.KernelIdeal.ArrayValue.kernel_run (F := Ideal) m ρ)
    funext i
    refine (Cert.KernelValue.outBlock_apply (fun b n d => m ((c.tc : Thread Cert.KernelIdeal.nD Cert.KernelIdeal.τ).loc Cert.KernelIdeal.main_arg0) (ix3 b n d))
      (fun d => m ((c.tc : Thread Cert.KernelIdeal.nD Cert.KernelIdeal.τ).loc Cert.KernelIdeal.main_arg1) (ix1 d)) (fun d => m ((c.tc : Thread Cert.KernelIdeal.nD Cert.KernelIdeal.τ).loc Cert.KernelIdeal.main_arg2) (ix1 d))
      (⟨(i 0).val, (i 0).isLt⟩ : Fin 4) _ _ _ (fun _ _ => rfl) (fun _ => rfl) (fun _ => rfl)
      (⟨(i 1).val, (i 1).isLt⟩ : Fin 4096) (⟨(i 2).val, (i 2).isLt⟩ : Fin 128)).trans ?_
    exact congrFun (congrFun (congrFun (Cert.Spec.outK_eq_outR _ _ _
      (fun b n d => congrFun (Cert.FiniteInputs.x_real m hpre c) (ix3 b n d))) _) _) _
  · refine (θ_run Cert.ReferenceIdeal.defs _ _).mono (fun r h c => ⟨(h c).1.trans ?_, (h c).2⟩)
      (Cert.ReferenceIdeal.ValueP.run (F := Ideal) m' ρ')
    rw [Cert.RefSide.res_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
